-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x10 .f32) (main_arg11 : FVec F S10 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg10
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x10 .f32) (main_arg11 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x10 .f32) (main_arg11 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x64 : Shape := ⟨2, ![50000, 64]⟩
abbrev S2000x128 : Shape := ⟨2, ![2000, 128]⟩
abbrev S2000x64 : Shape := ⟨2, ![2000, 64]⟩
abbrev S800000x64 : Shape := ⟨2, ![800000, 64]⟩
abbrev S50000x1 : Shape := ⟨2, ![50000, 1]⟩
abbrev S1x64 : Shape := ⟨2, ![1, 64]⟩
abbrev S2000x1 : Shape := ⟨2, ![2000, 1]⟩
abbrev S1x10 : Shape := ⟨2, ![1, 10]⟩
abbrev S50000x10 : Shape := ⟨2, ![50000, 10]⟩
abbrev S2000x10 : Shape := ⟨2, ![2000, 10]⟩

abbrev nBuf : Space → Nat
  | .hbm => 147
  | .vmem => 54
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x10, .f32⟩
  | 11 => ⟨S10, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S50000x64, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S800000x1, .f32⟩
  | 56 => ⟨S800000x64, .f32⟩
  | 57 => ⟨S800000x64, .f32⟩
  | 58 => ⟨S_, .f32⟩
  | 59 => ⟨S50000x64, .f32⟩
  | 60 => ⟨S800000x1, .i32⟩
  | 61 => ⟨S50000x64, .f32⟩
  | 62 => ⟨S50000x1, .f32⟩
  | 63 => ⟨S1x64, .f32⟩
  | 64 => ⟨S50000x64, .f32⟩
  | 65 => ⟨S50000x64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000, .f32⟩
  | 84 => ⟨S800000, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x64, .f32⟩
  | 94 => ⟨S800000x1, .f32⟩
  | 95 => ⟨S800000x64, .f32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S50000x1, .f32⟩
  | 102 => ⟨S1x64, .f32⟩
  | 103 => ⟨S50000x64, .f32⟩
  | 104 => ⟨S50000x64, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000, .f32⟩
  | 123 => ⟨S800000, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x64, .f32⟩
  | 5 => ⟨S800000x1, .f32⟩
  | 6 => ⟨S800000x64, .f32⟩
  | 7 => ⟨S800000x64, .f32⟩
  | 8 => ⟨S_, .f32⟩
  | 9 => ⟨S50000x64, .f32⟩
  | 10 => ⟨S800000x1, .i32⟩
  | 11 => ⟨S50000x64, .f32⟩
  | 12 => ⟨S50000x1, .f32⟩
  | 13 => ⟨S1x64, .f32⟩
  | 14 => ⟨S50000x64, .f32⟩
  | 15 => ⟨S1x64, .f32⟩
  | 16 => ⟨S50000x64, .f32⟩
  | 17 => ⟨S1x10, .f32⟩
  | 18 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S64x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S64x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x1, .f32⟩
  | .local _ .vmem, ⟨38, _⟩ => ⟨S2000x1, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S64x64, .f32⟩
  | .local _ .vmem, ⟨45, _⟩ => ⟨S1x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S64x10, .f32⟩
  | .local _ .vmem, ⟨51, _⟩ => ⟨S1x10, .f32⟩
  | .local _ .vmem, ⟨52, _⟩ => ⟨S2000x10, .f32⟩
  | .local _ .vmem, ⟨53, _⟩ => ⟨S2000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_15 : Ref sig .tc := ⟨.hbm, 105, rfl⟩
abbrev main_v76 : Ref sig .tc := ⟨.hbm, 106, rfl⟩
abbrev main_v77 : Ref sig .tc := ⟨.hbm, 107, rfl⟩
abbrev main_c_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_17 : Ref sig .tc := ⟨.hbm, 114, rfl⟩
abbrev main_v83 : Ref sig .tc := ⟨.hbm, 115, rfl⟩
abbrev main_v84 : Ref sig .tc := ⟨.hbm, 116, rfl⟩
abbrev main_c_18 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_19 : Ref sig .tc := ⟨.hbm, 124, rfl⟩
abbrev main_v91 : Ref sig .tc := ⟨.hbm, 125, rfl⟩
abbrev main_v92 : Ref sig .tc := ⟨.hbm, 126, rfl⟩
abbrev main_c_20 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_21 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x10 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x10 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x10 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S50000_S50000x1 : S50000.ShapeCasts S50000x1
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S10_S1x10 : S10.ShapeCasts S1x10
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  scatter_S50000_S800000x1_S800000_n_0_0_1_wf : ScatterDims.WF S50000 S800000x1 S800000 [] [0] [0] 1
  dot_S2000x128_S128x64_S2000x64_1_0_0_1_n_n_wf : DotDims.WF S2000x128 S128x64 S2000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x10_S2000x10_1_0_0_1_n_n_wf : DotDims.WF S2000x64 S64x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .f32 = 32 ∨ (Rect.block (s := S50000x64) S2000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x10.size a ≤ S64x10.size a
  hwx7_1 : ∀ i : grid7.Coords, EltTy.bits .f32 = 32 ∨ (Rect.block (s := S64x10) S64x10.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x10.size a ≤ S1x10.size a
  hwx7_2 : ∀ i : grid7.Coords, EltTy.bits .f32 = 32 ∨ (Rect.block (s := S1x10) S1x10.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x10.size a ≤ S50000x10.size a
  hwx7_3 : ∀ i : grid7.Coords, EltTy.bits .f32 = 32 ∨ (Rect.block (s := S50000x10) S2000x10.size (cc7_transform_3 i) (hinb7_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x10_S2000x10_1_0_0_1_n_n : DotDims S2000x64 S64x10 S2000x10 where
  lhsContracting := [1]
  rhsContracting := [0]
  lhsNonContracting := [0]
  rhsNonContracting := [1]
  lhsBatch := []
  rhsBatch := []
  wf := dot_S2000x64_S64x10_S2000x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v74) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v103) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v104) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v105) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v106) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v107) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v108) S2000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v108) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S64x10.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v109) S1x10.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v110) S2000x10.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x64 : Shape := ⟨2, ![50000, 64]⟩
abbrev S800000x64 : Shape := ⟨2, ![800000, 64]⟩
abbrev S50000x1 : Shape := ⟨2, ![50000, 1]⟩
abbrev S1x64 : Shape := ⟨2, ![1, 64]⟩
abbrev S50000x10 : Shape := ⟨2, ![50000, 10]⟩
abbrev S1x10 : Shape := ⟨2, ![1, 10]⟩

abbrev nBuf : Space → Nat
  | .hbm => 178
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x10, .f32⟩
  | 11 => ⟨S10, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S50000x64, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S800000x1, .f32⟩
  | 56 => ⟨S800000x64, .f32⟩
  | 57 => ⟨S800000x64, .f32⟩
  | 58 => ⟨S_, .f32⟩
  | 59 => ⟨S50000x64, .f32⟩
  | 60 => ⟨S800000x1, .i32⟩
  | 61 => ⟨S50000x64, .f32⟩
  | 62 => ⟨S50000, .f32⟩
  | 63 => ⟨S50000x1, .f32⟩
  | 64 => ⟨S50000x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S50000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000, .f32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x64, .f32⟩
  | 102 => ⟨S800000x1, .f32⟩
  | 103 => ⟨S800000x64, .f32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S50000, .f32⟩
  | 110 => ⟨S50000x1, .f32⟩
  | 111 => ⟨S50000x64, .f32⟩
  | 112 => ⟨S50000x64, .f32⟩
  | 113 => ⟨S50000x64, .f32⟩
  | 114 => ⟨S1x64, .f32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S50000x64, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000, .f32⟩
  | 11 => ⟨S800000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S800000x1, .f32⟩
  | 22 => ⟨S800000x64, .f32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S50000, .f32⟩
  | 29 => ⟨S50000x1, .f32⟩
  | 30 => ⟨S50000x64, .f32⟩
  | 31 => ⟨S50000x64, .f32⟩
  | 32 => ⟨S50000x64, .f32⟩
  | 33 => ⟨S1x64, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S50000x64, .f32⟩
  | 40 => ⟨S1x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S50000x10, .f32⟩
  | 47 => ⟨S1x10, .f32⟩
  | 48 => ⟨S50000x10, .f32⟩
  | 49 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call1_cst : Ref sig .tc := ⟨.hbm, 117, rfl⟩
abbrev main_call1_v0 : Ref sig .tc := ⟨.hbm, 118, rfl⟩
abbrev main_v86 : Ref sig .tc := ⟨.hbm, 119, rfl⟩
abbrev main_v87 : Ref sig .tc := ⟨.hbm, 120, rfl⟩
abbrev main_c_15 : Ref sig .tc := ⟨.hbm, 121, rfl⟩
abbrev main_v88 : Ref sig .tc := ⟨.hbm, 122, rfl⟩
abbrev main_v89 : Ref sig .tc := ⟨.hbm, 123, rfl⟩
abbrev main_c_16 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_17 : Ref sig .tc := ⟨.hbm, 130, rfl⟩
abbrev main_v95 : Ref sig .tc := ⟨.hbm, 131, rfl⟩
abbrev main_v96 : Ref sig .tc := ⟨.hbm, 132, rfl⟩
abbrev main_c_18 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_c_19 : Ref sig .tc := ⟨.hbm, 140, rfl⟩
abbrev main_v103 : Ref sig .tc := ⟨.hbm, 141, rfl⟩
abbrev main_v104 : Ref sig .tc := ⟨.hbm, 142, rfl⟩
abbrev main_c_20 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_21 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_call2_cst : Ref sig .tc := ⟨.hbm, 164, rfl⟩
abbrev main_call2_v0 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_call3_cst : Ref sig .tc := ⟨.hbm, 171, rfl⟩
abbrev main_call3_v0 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x10_S50000x10_1_0_0_1_n_n_wf : DotDims.WF S50000x64 S64x10 S50000x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x10_S50000x10_1_0_0_1_n_n : DotDims S50000x64 S64x10 S50000x10 where
  lhsContracting := [1]
  rhsContracting := [0]
  lhsNonContracting := [0]
  rhsNonContracting := [1]
  lhsBatch := []
  rhsBatch := []
  wf := dot_S50000x64_S64x10_S50000x10_1_0_0_1_n_n_wf

class Facts : Prop extends Facts₀ where

variable [Facts]
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibProduct.lean ====
/-
  The plain matrix product as one array, and its two spellings.

  For an R×K matrix X and a K×N matrix W the product is the array

      prod X W (i, j) = ∑ c, X(i, c) · W(c, j)

  in the extended reals. A host's general dot product with the plain dimension numbers IS this array, and a
  product on the matrix unit into the zero accumulator holds the same sum at every entry — with no finiteness
  asked, since each is that sum by definition once the contraction index is renamed by its one coordinate.
  The dimension record may be any record equal to the plain one (for a record written out with those lists the
  equality is `rfl`).
-/
import Idealize.ShloMosaic.PureOps.Ideal.Laws
import Idealize.ShloMosaic.Lib.ValueIdx
import proofs.«136079_j24970939859424_1_alg».proof.Proof.LibPlainDot

noncomputable section

open scoped BigOperators

namespace Cert.Product

open Idealize.ShloMosaic Idealize.ShloMosaic.ValueIdx

variable {R K N : Nat}

/-- The product X · W as one array, entry by entry. -/
def prod (X : (⟨2, ![R, K]⟩ : Shape).Idx → EReal) (W : (⟨2, ![K, N]⟩ : Shape).Idx → EReal) :
    (⟨2, ![R, N]⟩ : Shape).Idx → EReal :=
  fun i => ∑ c : Fin K, X (ix2 (i 0) c) * W (ix2 c (i 1))

/-- The product at entry (p, q). -/
theorem prod_apply (X : (⟨2, ![R, K]⟩ : Shape).Idx → EReal) (W : (⟨2, ![K, N]⟩ : Shape).Idx → EReal)
    (p : Fin R) (q : Fin N) : prod X W (ix2 p q) = ∑ c : Fin K, X (ix2 p c) * W (ix2 c q) := rfl

/-- The host's general dot product with the plain dimension numbers is the product. -/
theorem dotGeneral_eq (D : DotDims ⟨2, ![R, K]⟩ ⟨2, ![K, N]⟩ ⟨2, ![R, N]⟩) (hD : D = DotDims.plain R K N)
    (prec : Option ContractPrecision) (X : FVec Ideal ⟨2, ![R, K]⟩ .f32) (W : FVec Ideal ⟨2, ![K, N]⟩ .f32) :
    Host.dotGeneral D prec X W = prod X W := by
  funext j
  obtain ⟨p, q, rfl⟩ : ∃ (p : Fin R) (q : Fin N), j = ix2 p q := ⟨j 0, j 1, eq_ix2 j⟩
  exact PlainDot.dotGeneral_apply D hD prec .single X W p q

/-- A product on the matrix unit into the zero accumulator, after a change of float format of both operands,
    at entry (p, q): the product's entry. -/
theorem matmul_truncf_apply (D : DotDims ⟨2, ![R, K]⟩ ⟨2, ![K, N]⟩ ⟨2, ![R, N]⟩) (hD : D = DotDims.plain R K N)
    (prec : Option ContractPrecision) (X : FVec Ideal ⟨2, ![R, K]⟩ .f32) (W : FVec Ideal ⟨2, ![K, N]⟩ .f32)
    (hlt : FTy.bf16.bits < FTy.f32.bits) (p : Fin R) (q : Fin N) :
    matmul D prec (truncf .bf16 X hlt) (truncf .bf16 W hlt) (constant (F := Ideal) ⟨2, ![R, N]⟩ .f32 0x00000000#32) (ix2 p q)
      = prod X W (ix2 p q) :=
  PlainDot.matmul_zero_apply D hD prec (truncf .bf16 X hlt) (truncf .bf16 W hlt) p q

end Cert.Product

end
-- ==== Proof.Region0.lean ====
/-
  Region 0: a block of 2000 rows of X (50000 × 128) times the whole matrix W (128 × 64), written to the same
  2000 rows of the output. Row r of block t is row 2000·t + r of X, so what point t flushes is block t of the
  product X · W, the 25 blocks tile the rows, and the output array ends as X · W — for any contents V the
  region is entered with.
-/
import proofs.«136079_j24970939859424_1_alg».proof.Proof.Gen.KernelIdeal.Frame
import Idealize.ShloMosaic.Lib.Pipeline.Value
import Idealize.ShloMosaic.Lib.ValueIdx
import Idealize.ShloMosaic.PureOps.Ideal.Laws
import proofs.«136079_j24970939859424_1_alg».proof.Proof.LibPlainDot
import proofs.«136079_j24970939859424_1_alg».proof.Proof.LibProduct

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at entry (p, q) of the block: the row of the block against the column of W. -/
theorem pay (x0 : Vec Ideal S2000x128 .f32) (x1 : Vec Ideal S128x64 .f32) (p : Fin 2000) (q : Fin 64) :
    k0_pay1 x0 x1 (ix2 p q) = ∑ c : Fin 128, x0 (ix2 p c) * x1 (ix2 c q) := by
  unfold k0_pay1
  exact PlainDot.matmul_zero_apply dot_S2000x128_S128x64_S2000x64_1_0_0_1_n_n rfl none (truncf .bf16 x0 bitsLt_bf16_f32) (truncf .bf16 x1 bitsLt_bf16_f32) p q

/-- One entry of a block against one entry of the product: the block's row is the array's row, the lane is the lane. -/
theorem point (X : S50000x128.Idx → EReal) (W : S128x64.Idx → EReal) (x0 : Vec Ideal S2000x128 .f32)
    (x1 : Vec Ideal S128x64 .f32) (y : S2000x64.Idx) (i : S50000x64.Idx)
    (h0 : ∀ k : Fin 128, x0 (ix2 (y 0) k) = X (ix2 (i 0) k)) (h1 : ∀ u, x1 u = W u) (hq : (y 1).val = (i 1).val) :
    k0_pay1 x0 x1 y = Product.prod X W i := by
  obtain ⟨p, q, rfl⟩ : ∃ (p : Fin 2000) (q : Fin 64), y = ix2 p q := ⟨y 0, y 1, eq_ix2 y⟩
  obtain ⟨p', q', rfl⟩ : ∃ (p' : Fin 50000) (q' : Fin 64), i = ix2 p' q' := ⟨i 0, i 1, eq_ix2 i⟩
  obtain rfl : q = q' := Fin.ext hq
  rw [pay, Product.prod_apply]
  exact Finset.sum_congr rfl fun k _ => congrArg₂ (· * ·) (h0 k) (h1 _)

/-- The printed index maps, decided over the grid: X's block and the output's block move together down the rows,
    W's block stays put. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- What point t writes back is block t of the product of the arrays as the region finds them. -/
theorem flushed_eq (c : Dev nD) (t : Fin cfg0.N) :
    (dat0 V c).flushed 2 t = ((cfg0.win 2).blk t).view.read (Elt Ideal) (Product.prod (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  obtain ⟨e0, e1, e2, e3, e4⟩ := idx_facts t
  funext j
  refine point (V c main_arg0) (V c main_arg2) _ _ j (((cfg0.win 2).blk t).view.emb j) (fun k => ?_) (fun u => ?_) ?_
  · show V c main_arg0 (((cfg0.win 0).blk t).view.emb (ix2 (j 0) k)) = V c main_arg0 (ix2 ((((cfg0.win 2).blk t).view.emb j) 0) k)
    refine congrArg _ ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_arg2 (((cfg0.win 1).blk t).view.emb u) = V c main_arg2 u
    refine congrArg _ ?_
    funext a; apply Fin.ext
    match a with
    | ⟨0, _⟩ => show win0_1.index t (0 : Fin 2) * 128 + 1 * (u 0).val = (u 0).val; omega
    | ⟨1, _⟩ => show win0_1.index t (1 : Fin 2) * 64 + 1 * (u 1).val = (u 1).val; omega
  · show (j 1).val = win0_2.index t (1 : Fin 2) * 64 + 1 * (j 1).val
    omega

/-- An index of the output array is in point t's block iff each coordinate is in the block's range on its axis. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v11).slice (win0_2.rect t)).set ↔ _
  rw [View.set_slice_whole, Rect.mem_set_unit]
  exact Iff.rfl

/-- Every block of rows is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- The 25 blocks of 2000 rows tile the 50000 rows: every index is in the block of the point its row selects. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The output array after the region: the product of the arrays the region was entered with. -/
theorem final (c : Dev nD) : (dat0 V c).arrAt 2 cfg0.N = Product.prod (V c main_arg0) (V c main_arg2) :=
  (dat0 V c).arrAt_eq_of_cover 2 _ (fun t _ => flushed_eq V c t) cover

end Cert.KernelIdeal.Region0

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibCombine.lean ====
/-
  A graph-convolution layer's combine step as one array, and its two spellings.

  For R×N arrays A (the aggregated messages) and H (the projected features), an R×1 column D (a per-row factor)
  and a 1×N row B (a per-lane offset) the combine step is the array

      combine A H D B (i, j) = (A(i, j) + H(i, j) · D(i, 0)) + B(0, j)

  in the extended reals, and `combineRelu` clamps it below at zero. A host spells it with the column and the row
  broadcast to R×N along both axes; a kernel body spells it with the two vector broadcasts (of a whole block's
  column and of the row). Each spelling holds that value at every entry by definition, so no finiteness is asked.
  N ≠ 1, so that the row's own axis is not one a broadcast copies.
-/
import Idealize.ShloMosaic.PureOps.Ideal.Laws
import Idealize.ShloMosaic.Lib.Pipeline.Value
import Idealize.ShloMosaic.Lib.ValueIdx
import proofs.«136079_j24970939859424_1_alg».proof.Proof.LibRowVector
import proofs.«136079_j24970939859424_1_alg».proof.Proof.LibRowInDim
import proofs.«136079_j24970939859424_1_alg».proof.Proof.LibColumnInDim

noncomputable section

namespace Cert.Combine

open Idealize.ShloMosaic Idealize.ShloMosaic.ValueIdx

variable {R N : Nat}

/-- The zero every clamp compares against: the value of the all-zero f32 pattern. -/
abbrev zero : EReal := Ideal.ofBits .f32 0x00000000#32

/-- (A + H · D) + B, entry by entry: D a per-row factor, B a per-lane offset. -/
def combine (A H : (⟨2, ![R, N]⟩ : Shape).Idx → EReal) (D : (⟨2, ![R, 1]⟩ : Shape).Idx → EReal)
    (B : (⟨2, ![1, N]⟩ : Shape).Idx → EReal) : (⟨2, ![R, N]⟩ : Shape).Idx → EReal :=
  fun i => (A i + H i * D (ix2 (i 0) (0 : Fin 1))) + B (ix2 (0 : Fin 1) (i 1))

/-- The same, clamped below at zero. -/
def combineRelu (A H : (⟨2, ![R, N]⟩ : Shape).Idx → EReal) (D : (⟨2, ![R, 1]⟩ : Shape).Idx → EReal)
    (B : (⟨2, ![1, N]⟩ : Shape).Idx → EReal) : (⟨2, ![R, N]⟩ : Shape).Idx → EReal :=
  fun i => max (combine A H D B i) zero

theorem combine_apply (A H : (⟨2, ![R, N]⟩ : Shape).Idx → EReal) (D : (⟨2, ![R, 1]⟩ : Shape).Idx → EReal)
    (B : (⟨2, ![1, N]⟩ : Shape).Idx → EReal) (p : Fin R) (q : Fin N) :
    combine A H D B (ix2 p q) = (A (ix2 p q) + H (ix2 p q) * D (ix2 p (0 : Fin 1))) + B (ix2 (0 : Fin 1) q) := rfl

theorem combineRelu_apply (A H : (⟨2, ![R, N]⟩ : Shape).Idx → EReal) (D : (⟨2, ![R, 1]⟩ : Shape).Idx → EReal)
    (B : (⟨2, ![1, N]⟩ : Shape).Idx → EReal) (p : Fin R) (q : Fin N) :
    combineRelu A H D B (ix2 p q)
      = max ((A (ix2 p q) + H (ix2 p q) * D (ix2 p (0 : Fin 1))) + B (ix2 (0 : Fin 1) q)) zero := rfl

/-- An R×1 column copied to every lane of an R×N array by a vector broadcast, at (p, c): the column at (p, 0). -/
theorem broadcastTo_column {α : Type} (v : (⟨2, ![R, 1]⟩ : Shape).Idx → α)
    (h : (⟨2, ![R, 1]⟩ : Shape).Broadcasts ⟨2, ![R, N]⟩) (p : Fin R) (c : Fin N) :
    broadcastTo ⟨2, ![R, N]⟩ v h (ix2 p c) = v (ix2 p (0 : Fin 1)) :=
  broadcastTo_apply v h (ix2 p c) (ix2 p (0 : Fin 1)) (fun ax => match ax with
    | ⟨0, _⟩ => by
      show p.val = if R = 1 then 0 else p.val
      split
      · have := p.isLt; omega
      · rfl
    | ⟨1, _⟩ => by
      show (0 : Nat) = if (1 : Nat) = 1 then 0 else c.val
      rw [if_pos rfl])

/-- A scalar broadcast to every entry by the host, at an index: the scalar. -/
theorem broadcastInDim_scalar {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun ax => ax.elim0)

/-- A host's spelling of the combine step IS the combine step. -/
theorem host_eq (hN : N ≠ 1) (A H : FVec Ideal ⟨2, ![R, N]⟩ .f32) (D : FVec Ideal ⟨2, ![R, 1]⟩ .f32)
    (B : FVec Ideal ⟨2, ![1, N]⟩ .f32)
    (hD : (⟨2, ![R, 1]⟩ : Shape).BroadcastsInDim ⟨2, ![R, N]⟩ (![0, 1] : Fin 2 → Fin 2))
    (hB : (⟨2, ![1, N]⟩ : Shape).BroadcastsInDim ⟨2, ![R, N]⟩ (![0, 1] : Fin 2 → Fin 2)) :
    addf (addf A (mulf H (broadcastInDim ⟨2, ![R, N]⟩ ![0, 1] hD D))) (broadcastInDim ⟨2, ![R, N]⟩ ![0, 1] hB B)
      = combine A H D B := by
  funext j
  obtain ⟨p, q, rfl⟩ : ∃ (p : Fin R) (q : Fin N), j = ix2 p q := ⟨j 0, j 1, eq_ix2 j⟩
  show (A (ix2 p q) + H (ix2 p q) * broadcastInDim ⟨2, ![R, N]⟩ ![0, 1] hD D (ix2 p q))
      + broadcastInDim ⟨2, ![R, N]⟩ ![0, 1] hB B (ix2 p q) = _
  rw [ColumnInDim.broadcastInDim_lanes, RowInDim.broadcastInDim_rows hN, combine_apply]

/-- A host's clamp at zero (a maximum with the zero scalar broadcast to every entry), entry by entry. -/
theorem host_relu_eq (X : FVec Ideal ⟨2, ![R, N]⟩ .f32)
    (h0 : (⟨0, ![]⟩ : Shape).BroadcastsInDim ⟨2, ![R, N]⟩ (![] : Fin 0 → Fin 2)) :
    maximumf X (broadcastInDim ⟨2, ![R, N]⟩ ![] h0 (constant (F := Ideal) ⟨0, ![]⟩ .f32 0x00000000#32))
      = fun i => max (X i) zero := by
  funext j
  show max (X j) (broadcastInDim ⟨2, ![R, N]⟩ ![] h0 (constant (F := Ideal) ⟨0, ![]⟩ .f32 0x00000000#32) j) = _
  rw [broadcastInDim_scalar]
  rfl

/-- So a host's spelling of the clamped combine step IS the clamped combine step. -/
theorem host_relu_combine_eq (hN : N ≠ 1) (A H : FVec Ideal ⟨2, ![R, N]⟩ .f32) (D : FVec Ideal ⟨2, ![R, 1]⟩ .f32)
    (B : FVec Ideal ⟨2, ![1, N]⟩ .f32)
    (hD : (⟨2, ![R, 1]⟩ : Shape).BroadcastsInDim ⟨2, ![R, N]⟩ (![0, 1] : Fin 2 → Fin 2))
    (hB : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2)) :
    maximumf (addf (addf A (mulf H (broadcastInDim ⟨2, ![R, N]⟩ ![0, 1] hD D)))
        (broadcastInDim ⟨2, ![R, N]⟩ ![0, 1] hB B))
        (broadcastInDim ⟨2, ![R, N]⟩ ![] h0 (constant (F := Ideal) ⟨0, ![]⟩ .f32 0x00000000#32))
      = combineRelu A H D B := by
  rw [host_relu_eq, host_eq hN]
  rfl

/-- A kernel body's spelling on one block (the block's column and the row spread by vector broadcasts), at entry
    (r, q) of the block. -/
theorem kernel_apply (hN : N ≠ 1) (a h : FVec Ideal ⟨2, ![R, N]⟩ .f32) (d : FVec Ideal ⟨2, ![R, 1]⟩ .f32)
    (b : FVec Ideal ⟨2, ![1, N]⟩ .f32)
    (hd : (⟨2, ![R, 1]⟩ : Shape).Broadcasts ⟨2, ![R, N]⟩) (hb : (⟨2, ![1, N]⟩ : Shape).Broadcasts ⟨2, ![R, N]⟩)
    (r : Fin R) (q : Fin N) :
    addf (addf a (mulf h (broadcastTo ⟨2, ![R, N]⟩ d hd))) (broadcastTo ⟨2, ![R, N]⟩ b hb) (ix2 r q)
      = (a (ix2 r q) + h (ix2 r q) * d (ix2 r (0 : Fin 1))) + b (ix2 (0 : Fin 1) q) := by
  show (a (ix2 r q) + h (ix2 r q) * broadcastTo ⟨2, ![R, N]⟩ d hd (ix2 r q)) + broadcastTo ⟨2, ![R, N]⟩ b hb (ix2 r q) = _
  rw [broadcastTo_column, RowVector.broadcastTo_row hN]

end Cert.Combine

end
-- ==== Proof.LibHostRead.lean ====
/-
  GENERAL LEMMAS: host layout operations read at an index.

  * a host operation of three operands whose function is given as a function of the three contents leaves that
    function of the three operands' contents in its result buffer;
  * a matrix (or vector) padded on the high side only reads, inside the original extents, the operand at the same
    index, and outside them the padding value;
  * three equal-shape blocks joined along the lanes of a matrix (or along a vector) read, at position
    w·g + r of the joined axis, block g at position r.
  Nothing here depends on a program.
-/
import Idealize.ShloMosaic.Lib.StableHlo.Run
import Idealize.ShloMosaic.Lib.Pipeline.Value
import Idealize.ShloMosaic.Lib.ValueIdx

noncomputable section

namespace Cert.HostRead

open Idealize.ShloMosaic Idealize.ShloMosaic.ValueIdx Idealize.ShloMosaic.StableHlo Idealize.SL.Sem

/-- A three-operand host operation whose function is `g` of the three contents: its result buffer holds `g` of the
    operands' contents. -/
theorem nary3_result {τ : Topo} {sig : RefSig} {Val : EltTy → Type} {x a b y : Ref sig .tc}
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (no_index (Proc.devRef .tc y))
      = g (F (Proc.devRef .tc x)) (F (Proc.devRef .tc a)) (F (Proc.devRef .tc b)) :=
  nary_result ![x, a, b] y _ hxs hy F

variable {α : Type}

/-- A matrix padded on the high side of both axes, read inside the original extents. -/
theorem pad2_inside {a b A B ha hb : Nat} (X : (⟨2, ![a, b]⟩ : Shape).Idx → α) {u : Shape} (v : u.Idx → α)
    (h : (⟨2, ![a, b]⟩ : Shape).Pads ![0, 0] ![ha, hb] ![0, 0] ⟨2, ![A, B]⟩) (hu : 0 < u.numel)
    (i : Fin A) (j : Fin B) (hi : i.val < a) (hj : j.val < b) :
    pad ⟨2, ![A, B]⟩ ![0, 0] ![ha, hb] ![0, 0] X v h hu (ix2 i j) = X (ix2 ⟨i.val, hi⟩ ⟨j.val, hj⟩) := by
  unfold pad
  rw [dif_pos (fun ax => match ax with
    | ⟨0, _⟩ => ⟨Nat.zero_le _, Nat.mod_one _, by show (i.val - 0) / (0 + 1) < a; simpa using hi⟩
    | ⟨1, _⟩ => ⟨Nat.zero_le _, Nat.mod_one _, by show (j.val - 0) / (0 + 1) < b; simpa using hj⟩)]
  refine congrArg X (funext fun ax => Fin.ext ?_)
  match ax with
  | ⟨0, _⟩ => show (i.val - 0) / (0 + 1) = i.val; simp
  | ⟨1, _⟩ => show (j.val - 0) / (0 + 1) = j.val; simp

/-- A matrix padded on the high side, read at a row past the original rows: the padding value. -/
theorem pad2_past_rows {a b A B ha hb : Nat} (X : (⟨2, ![a, b]⟩ : Shape).Idx → α) {u : Shape} (v : u.Idx → α)
    (h : (⟨2, ![a, b]⟩ : Shape).Pads ![0, 0] ![ha, hb] ![0, 0] ⟨2, ![A, B]⟩) (hu : 0 < u.numel)
    (i : Fin A) (j : Fin B) (hi : a ≤ i.val) :
    pad ⟨2, ![A, B]⟩ ![0, 0] ![ha, hb] ![0, 0] X v h hu (ix2 i j) = v (Shape.Idx.first hu) := by
  unfold pad
  rw [dif_neg]
  intro hin
  have h0 : (i.val - 0) / (0 + 1) < a := (hin (0 : Fin 2)).2.2
  simp at h0
  omega

/-- A vector padded on the high side, read inside the original extent. -/
theorem pad1_inside {a A ha : Nat} (x : (⟨1, ![a]⟩ : Shape).Idx → α) {u : Shape} (v : u.Idx → α)
    (h : (⟨1, ![a]⟩ : Shape).Pads ![0] ![ha] ![0] ⟨1, ![A]⟩) (hu : 0 < u.numel) (i : Fin A) (hi : i.val < a) :
    pad ⟨1, ![A]⟩ ![0] ![ha] ![0] x v h hu (ix1 i) = x (ix1 ⟨i.val, hi⟩) := by
  unfold pad
  rw [dif_pos (fun ax => match ax with
    | ⟨0, _⟩ => ⟨Nat.zero_le _, Nat.mod_one _, by show (i.val - 0) / (0 + 1) < a; simpa using hi⟩)]
  refine congrArg x (funext fun ax => Fin.ext ?_)
  match ax with
  | ⟨0, _⟩ => show (i.val - 0) / (0 + 1) = i.val; simp

/-- Three K×w blocks joined along the lanes, read at lane w·g + r: block g at lane r. -/
theorem join3_lanes {K w n : Nat} (A0 A1 A2 : (⟨2, ![K, w]⟩ : Shape).Idx → α)
    (h : Shape.Concatenates [(⟨2, ![K, w]⟩ : Shape), ⟨2, ![K, w]⟩, ⟨2, ![K, w]⟩] ⟨2, ![K, n]⟩ 1) (k : Fin K) (r : Fin w) (l : Fin n) :
    (l.val = r.val → concatenate ⟨2, ![K, n]⟩ 1 [⟨⟨2, ![K, w]⟩, A0⟩, ⟨⟨2, ![K, w]⟩, A1⟩, ⟨⟨2, ![K, w]⟩, A2⟩] h (ix2 k l) = A0 (ix2 k r))
    ∧ (l.val = w + r.val → concatenate ⟨2, ![K, n]⟩ 1 [⟨⟨2, ![K, w]⟩, A0⟩, ⟨⟨2, ![K, w]⟩, A1⟩, ⟨⟨2, ![K, w]⟩, A2⟩] h (ix2 k l) = A1 (ix2 k r))
    ∧ (l.val = w + w + r.val → concatenate ⟨2, ![K, n]⟩ 1 [⟨⟨2, ![K, w]⟩, A0⟩, ⟨⟨2, ![K, w]⟩, A1⟩, ⟨⟨2, ![K, w]⟩, A2⟩] h (ix2 k l) = A2 (ix2 k r)) := by
  have hi : ∀ b : Fin 2, b.cast (rfl : (2 : Nat) = 2) ≠ (1 : Fin 2) → ((ix2 k r : (⟨2, ![K, w]⟩ : Shape).Idx) b).val = ((ix2 k l : (⟨2, ![K, n]⟩ : Shape).Idx) (b.cast rfl)).val :=
    fun b hb => match b with
      | ⟨0, _⟩ => rfl
      | ⟨1, _⟩ => absurd rfl hb
  refine ⟨fun hl => ?_, fun hl => ?_, fun hl => ?_⟩
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 0 (by show 0 < 3; omega) _ A0 rfl rfl 0 (by simp) (ix2 k r) hi (by show 0 + r.val = l.val; omega)
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 1 (by show 1 < 3; omega) _ A1 rfl rfl w (by simp) (ix2 k r) hi (by show w + r.val = l.val; omega)
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 2 (by show 2 < 3; omega) _ A2 rfl rfl (w + w) (by simp) (ix2 k r) hi (by show w + w + r.val = l.val; omega)

/-- Three length-w vectors joined end to end, read at position w·g + r: vector g at position r. -/
theorem join3_vec {w n : Nat} (a0 a1 a2 : (⟨1, ![w]⟩ : Shape).Idx → α)
    (h : Shape.Concatenates [(⟨1, ![w]⟩ : Shape), ⟨1, ![w]⟩, ⟨1, ![w]⟩] ⟨1, ![n]⟩ 0) (r : Fin w) (l : Fin n) :
    (l.val = r.val → concatenate ⟨1, ![n]⟩ 0 [⟨⟨1, ![w]⟩, a0⟩, ⟨⟨1, ![w]⟩, a1⟩, ⟨⟨1, ![w]⟩, a2⟩] h (ix1 l) = a0 (ix1 r))
    ∧ (l.val = w + r.val → concatenate ⟨1, ![n]⟩ 0 [⟨⟨1, ![w]⟩, a0⟩, ⟨⟨1, ![w]⟩, a1⟩, ⟨⟨1, ![w]⟩, a2⟩] h (ix1 l) = a1 (ix1 r))
    ∧ (l.val = w + w + r.val → concatenate ⟨1, ![n]⟩ 0 [⟨⟨1, ![w]⟩, a0⟩, ⟨⟨1, ![w]⟩, a1⟩, ⟨⟨1, ![w]⟩, a2⟩] h (ix1 l) = a2 (ix1 r)) := by
  have hi : ∀ b : Fin 1, b.cast (rfl : (1 : Nat) = 1) ≠ (0 : Fin 1) → ((ix1 r : (⟨1, ![w]⟩ : Shape).Idx) b).val = ((ix1 l : (⟨1, ![n]⟩ : Shape).Idx) (b.cast rfl)).val :=
    fun b hb => match b with
      | ⟨0, _⟩ => absurd rfl hb
  refine ⟨fun hl => ?_, fun hl => ?_, fun hl => ?_⟩
  · exact concatenate_apply_piece (t := ⟨1, ![n]⟩) (0 : Fin 1) [⟨⟨1, ![w]⟩, a0⟩, ⟨⟨1, ![w]⟩, a1⟩, ⟨⟨1, ![w]⟩, a2⟩] h (ix1 l) 0 (by show 0 < 3; omega) _ a0 rfl rfl 0 (by simp) (ix1 r) hi (by show 0 + r.val = l.val; omega)
  · exact concatenate_apply_piece (t := ⟨1, ![n]⟩) (0 : Fin 1) [⟨⟨1, ![w]⟩, a0⟩, ⟨⟨1, ![w]⟩, a1⟩, ⟨⟨1, ![w]⟩, a2⟩] h (ix1 l) 1 (by show 1 < 3; omega) _ a1 rfl rfl w (by simp) (ix1 r) hi (by show w + r.val = l.val; omega)
  · exact concatenate_apply_piece (t := ⟨1, ![n]⟩) (0 : Fin 1) [⟨⟨1, ![w]⟩, a0⟩, ⟨⟨1, ![w]⟩, a1⟩, ⟨⟨1, ![w]⟩, a2⟩] h (ix1 l) 2 (by show 2 < 3; omega) _ a2 rfl rfl (w + w) (by simp) (ix1 r) hi (by show w + w + r.val = l.val; omega)

end Cert.HostRead

end
-- ==== Proof.LibLinear.lean ====
/-
  An affine layer read at one entry, at the ideal values.

  For an R×K matrix X, a K×N matrix W and a length-N vector b the layer is the array

      dense X W b (i, j) = (∑ c, X(i, c) · W(c, j)) + b(j)

  in the extended reals. Two spellings of it are read here at an entry (p, q), with no finiteness asked, since
  each is that sum by definition once the contraction index is renamed by its one coordinate:

    * a kernel's: the product on the matrix unit into the zero accumulator of the two operands after a change of
      float format (the identity on ideal values), the left operand first re-cast to its own shape; the vector
      laid out as a 1×N row, copied to every row and added;
    * a host's: the general dot product with the plain dimension numbers; the vector broadcast to a 1×N row and
      then to every row, and added.

  Row i of the layer depends on row i of X alone. So rows appended below X (a padding of any value) change nothing
  in the first rows: the layer of the padded matrix, cut back to the original rows, is the layer of X
  (`slice_dense_pad`).

  The dimension record of either product may be any record equal to the plain one (for a record written out with
  those lists the equality is `rfl`); N ≠ 1 so that the row's own axis is not one that a broadcast copies.
-/
import Idealize.ShloMosaic.PureOps.Ideal.Laws
import Idealize.ShloMosaic.Lib.Pipeline.Value
import Idealize.ShloMosaic.Lib.ValueIdx
import proofs.«136079_j24970939859424_1_alg».proof.Proof.LibPlainDot
import proofs.«136079_j24970939859424_1_alg».proof.Proof.LibRowVector
import proofs.«136079_j24970939859424_1_alg».proof.Proof.LibRowInDim
import proofs.«136079_j24970939859424_1_alg».proof.Proof.LibRowOfVector
import proofs.«136079_j24970939859424_1_alg».proof.Proof.LibHostRead

noncomputable section

open scoped BigOperators

namespace Cert.Linear

open Idealize.ShloMosaic Idealize.ShloMosaic.ValueIdx

variable {R K N : Nat}

/-- The affine layer X · W + b as one array, entry by entry. -/
def dense (X : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => (∑ c : Fin K, X (ix2 (i 0) c) * W (ix2 c (i 1))) + b (ix1 (i 1))

/-- The layer at entry (p, q). -/
theorem dense_apply (X : (⟨2, ![R, K]⟩ : Shape).Idx → EReal) (W : (⟨2, ![K, N]⟩ : Shape).Idx → EReal)
    (b : (⟨1, ![N]⟩ : Shape).Idx → EReal) (p : Fin R) (q : Fin N) :
    dense X W b (ix2 p q) = (∑ c : Fin K, X (ix2 p c) * W (ix2 c q)) + b (ix1 q) := rfl

/-- A kernel's spelling of the layer, at entry (p, q). -/
theorem kernel_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (hX : (⟨2, ![R, K]⟩ : Shape).ShapeCasts ⟨2, ![R, K]⟩) (hb : (⟨1, ![N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    addf (matmul D prec (truncf .bf16 (shapeCast ⟨2, ![R, K]⟩ X hX) hlt) (truncf .bf16 W hlt)
          (constant (F := Ideal) ⟨2, ![R, N]⟩ .f32 0x00000000#32))
        (broadcastTo ⟨2, ![R, N]⟩ (shapeCast ⟨2, ![1, N]⟩ b hb) hbc) (ix2 p q)
      = dense X W b (ix2 p q) := by
  show matmul D prec (truncf .bf16 (shapeCast ⟨2, ![R, K]⟩ X hX) hlt) (truncf .bf16 W hlt)
        (constant (F := Ideal) ⟨2, ![R, N]⟩ .f32 0x00000000#32) (ix2 p q)
      + broadcastTo ⟨2, ![R, N]⟩ (shapeCast ⟨2, ![1, N]⟩ b hb) hbc (ix2 p q) = _
  rw [RowVector.broadcastTo_row hN, RowVector.shapeCast_row, dense_apply]
  refine congrArg (· + b (ix1 q))
    ((PlainDot.matmul_zero_apply D hD prec (truncf .bf16 (shapeCast ⟨2, ![R, K]⟩ X hX) hlt) (truncf .bf16 W hlt) p q).trans ?_)
  refine Finset.sum_congr rfl fun c _ => ?_
  show shapeCast ⟨2, ![R, K]⟩ X hX (ix2 p c) * W (ix2 c q) = _
  rw [shapeCast_self]

/-- A host's spelling of the layer, at entry (r, c). -/
theorem host_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) (c : Fin N) :
    addf (Host.dotGeneral D prec X W)
        (broadcastInDim ⟨2, ![R, N]⟩ ![0, 1] h2 (broadcastInDim ⟨2, ![1, N]⟩ ![1] h1 b)) (ix2 r c)
      = dense X W b (ix2 r c) := by
  show FloatOps.dotGeneral D prec .single X W (ix2 r c)
      + broadcastInDim ⟨2, ![R, N]⟩ ![0, 1] h2 (broadcastInDim ⟨2, ![1, N]⟩ ![1] h1 b) (ix2 r c) = _
  rw [RowInDim.broadcastInDim_rows hN, PlainDot.dotGeneral_apply D hD, RowOfVector.broadcastInDim_row hN, dense_apply]

/-- So a host's spelling of the layer IS the layer. -/
theorem host_eq (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) :
    addf (Host.dotGeneral D prec X W)
        (broadcastInDim ⟨2, ![R, N]⟩ ![0, 1] h2 (broadcastInDim ⟨2, ![1, N]⟩ ![1] h1 b))
      = dense X W b := by
  funext j
  obtain ⟨r, c, rfl⟩ : ∃ (r : Fin R) (c : Fin N), j = ix2 r c := ⟨j 0, j 1, eq_ix2 j⟩
  exact host_apply D hD hN prec X W b h1 h2 r c

/-- Rows appended below a matrix do not reach the rows above them: the layer of a matrix padded with extra rows,
    cut back to the original rows, is the layer of the matrix. -/
theorem slice_dense_pad {a A ha : Nat} (X : (⟨2, ![a, K]⟩ : Shape).Idx → EReal) {u : Shape} (v : u.Idx → EReal)
    (W : (⟨2, ![K, N]⟩ : Shape).Idx → EReal) (b : (⟨1, ![N]⟩ : Shape).Idx → EReal)
    (hp : (⟨2, ![a, K]⟩ : Shape).Pads ![0, 0] ![ha, 0] ![0, 0] ⟨2, ![A, K]⟩) (hu : 0 < u.numel)
    (hs : (⟨2, ![A, N]⟩ : Shape).Slices ![0, 0] ⟨2, ![a, N]⟩) (haA : a ≤ A) :
    extractStridedSlice ⟨2, ![a, N]⟩ ![0, 0] (dense (pad ⟨2, ![A, K]⟩ ![0, 0] ![ha, 0] ![0, 0] X v hp hu) W b) hs
      = dense X W b := by
  funext j
  obtain ⟨r, q, rfl⟩ : ∃ (r : Fin a) (q : Fin N), j = ix2 r q := ⟨j 0, j 1, eq_ix2 j⟩
  have hr : r.val < A := lt_of_lt_of_le r.isLt haA
  rw [extractStridedSlice_apply ![0, 0] _ hs (ix2 r q) (ix2 ⟨r.val, hr⟩ q) (fun ax => match ax with
      | ⟨0, _⟩ => by show r.val = 0 + r.val; omega
      | ⟨1, _⟩ => by show q.val = 0 + q.val; omega),
    dense_apply, dense_apply]
  refine congrArg (· + b (ix1 q)) (Finset.sum_congr rfl fun c _ => ?_)
  rw [HostRead.pad2_inside X v hp hu ⟨r.val, hr⟩ c r.isLt c.isLt]

end Cert.Linear

end
-- ==== Proof.LibAffineRow.lean ====
/-
  A matrix product plus a row, as one array.

  For an R×K matrix X, a K×N matrix W and a 1×N row B,

      rowAffine X W B (i, j) = (∑ c, X(i, c) · W(c, j)) + B(0, j)

  in the extended reals. When the row is a length-N vector laid out as 1×N by a reshape, this is the affine layer
  X · W + b of that vector.
-/
import Idealize.ShloMosaic.PureOps.Ideal.Laws
import Idealize.ShloMosaic.Lib.Pipeline.Value
import Idealize.ShloMosaic.Lib.ValueIdx
import proofs.«136079_j24970939859424_1_alg».proof.Proof.LibProduct
import proofs.«136079_j24970939859424_1_alg».proof.Proof.LibLinear
import proofs.«136079_j24970939859424_1_alg».proof.Proof.LibRowVector

noncomputable section

open scoped BigOperators

namespace Cert.AffineRow

open Idealize.ShloMosaic Idealize.ShloMosaic.ValueIdx

variable {R K N : Nat}

/-- X · W plus the row B on every row, entry by entry. -/
def rowAffine (X : (⟨2, ![R, K]⟩ : Shape).Idx → EReal) (W : (⟨2, ![K, N]⟩ : Shape).Idx → EReal)
    (B : (⟨2, ![1, N]⟩ : Shape).Idx → EReal) : (⟨2, ![R, N]⟩ : Shape).Idx → EReal :=
  fun i => (∑ c : Fin K, X (ix2 (i 0) c) * W (ix2 c (i 1))) + B (ix2 (0 : Fin 1) (i 1))

theorem rowAffine_apply (X : (⟨2, ![R, K]⟩ : Shape).Idx → EReal) (W : (⟨2, ![K, N]⟩ : Shape).Idx → EReal)
    (B : (⟨2, ![1, N]⟩ : Shape).Idx → EReal) (p : Fin R) (q : Fin N) :
    rowAffine X W B (ix2 p q) = (∑ c : Fin K, X (ix2 p c) * W (ix2 c q)) + B (ix2 (0 : Fin 1) q) := rfl

/-- With the row a reshaped length-N vector, this is the affine layer of the vector. -/
theorem rowAffine_shapeCast (X : (⟨2, ![R, K]⟩ : Shape).Idx → EReal) (W : (⟨2, ![K, N]⟩ : Shape).Idx → EReal)
    (b : (⟨1, ![N]⟩ : Shape).Idx → EReal) (h : (⟨1, ![N]⟩ : Shape).ShapeCasts ⟨2, ![1, N]⟩) :
    rowAffine X W (shapeCast ⟨2, ![1, N]⟩ b h) = Linear.dense X W b := by
  funext j
  obtain ⟨p, q, rfl⟩ : ∃ (p : Fin R) (q : Fin N), j = ix2 p q := ⟨j 0, j 1, eq_ix2 j⟩
  rw [rowAffine_apply, Linear.dense_apply, RowVector.shapeCast_row]

end Cert.AffineRow

end
-- ==== Proof.LibNodeUpdate.lean ====
/-
  One node update of a normalised graph convolution as one array, and its spellings.

  For R×N arrays A (the messages summed at each node) and H (the node's own projected features), a length-R
  vector d (a per-node factor) and a length-N vector b (a per-lane offset) the update is

      update A H d b (i, j) = max ((A(i, j) + (d(i) · d(i)) · H(i, j)) + b(j)) 0

  in the extended reals: the node's own row enters scaled by the square of its factor, and the sum is clamped
  below at zero. Three spellings are read here, each that value by definition at every entry, so no
  finiteness is asked:

    * over a column view D (R×1) of d and a row view B (1×N) of b (`updateCol`), and that with the views
      the reshapes of the vectors it is `update`;
    * a kernel body's, on one block: the block's column squared, then spread over the lanes by a vector
      broadcast, the row spread over the rows, the maximum taken with a splat zero;
    * a host's: the squared vector broadcast to a column and then to every lane, the offset broadcast to a
      row and then to every row, the maximum taken with the zero scalar broadcast to every entry.

  Also an affine layer whose offset is a 1×N row (`AffineRow.rowAffine`), in a kernel body's spelling on
  one block, with and without the clamp, and the clamp `relu` itself in a host's spelling.
  N ≠ 1 so that the row's own axis is not one a broadcast copies.
-/
import Idealize.ShloMosaic.PureOps.Ideal.Laws
import Idealize.ShloMosaic.Lib.Pipeline.Value
import Idealize.ShloMosaic.Lib.ValueIdx
import proofs.«136079_j24970939859424_1_alg».proof.Proof.LibRowVector
import proofs.«136079_j24970939859424_1_alg».proof.Proof.LibRowInDim
import proofs.«136079_j24970939859424_1_alg».proof.Proof.LibColumnInDim
import proofs.«136079_j24970939859424_1_alg».proof.Proof.LibRowOfVector
import proofs.«136079_j24970939859424_1_alg».proof.Proof.LibCombine
import proofs.«136079_j24970939859424_1_alg».proof.Proof.LibPlainDot
import proofs.«136079_j24970939859424_1_alg».proof.Proof.LibAffineRow

noncomputable section

open scoped BigOperators

namespace Cert.NodeUpdate

open Idealize.ShloMosaic Idealize.ShloMosaic.ValueIdx

variable {R K N : Nat}

/-- The zero every clamp compares against: the value of the all-zero f32 pattern. -/
abbrev zero : EReal := Ideal.ofBits .f32 0x00000000#32

/-- The clamp below at zero, entry by entry. -/
def relu {s : Shape} (X : s.Idx → EReal) : s.Idx → EReal := fun i => max (X i) zero

/-- The node update over a column view of the factor and a row view of the offset. -/
def updateCol (A H : (⟨2, ![R, N]⟩ : Shape).Idx → EReal) (D : (⟨2, ![R, 1]⟩ : Shape).Idx → EReal)
    (B : (⟨2, ![1, N]⟩ : Shape).Idx → EReal) : (⟨2, ![R, N]⟩ : Shape).Idx → EReal :=
  fun i => max ((A i + (D (ix2 (i 0) (0 : Fin 1)) * D (ix2 (i 0) (0 : Fin 1))) * H i) + B (ix2 (0 : Fin 1) (i 1))) zero

/-- The node update over the factor and the offset as vectors. -/
def update (A H : (⟨2, ![R, N]⟩ : Shape).Idx → EReal) (d : (⟨1, ![R]⟩ : Shape).Idx → EReal)
    (b : (⟨1, ![N]⟩ : Shape).Idx → EReal) : (⟨2, ![R, N]⟩ : Shape).Idx → EReal :=
  fun i => max ((A i + (d (ix1 (i 0)) * d (ix1 (i 0))) * H i) + b (ix1 (i 1))) zero

theorem updateCol_apply (A H : (⟨2, ![R, N]⟩ : Shape).Idx → EReal) (D : (⟨2, ![R, 1]⟩ : Shape).Idx → EReal)
    (B : (⟨2, ![1, N]⟩ : Shape).Idx → EReal) (p : Fin R) (q : Fin N) :
    updateCol A H D B (ix2 p q)
      = max ((A (ix2 p q) + (D (ix2 p (0 : Fin 1)) * D (ix2 p (0 : Fin 1))) * H (ix2 p q)) + B (ix2 (0 : Fin 1) q)) zero := rfl

theorem update_apply (A H : (⟨2, ![R, N]⟩ : Shape).Idx → EReal) (d : (⟨1, ![R]⟩ : Shape).Idx → EReal)
    (b : (⟨1, ![N]⟩ : Shape).Idx → EReal) (p : Fin R) (q : Fin N) :
    update A H d b (ix2 p q) = max ((A (ix2 p q) + (d (ix1 p) * d (ix1 p)) * H (ix2 p q)) + b (ix1 q)) zero := rfl

/-- With the column and the row the reshapes of the two vectors, the update over views is the update. -/
theorem updateCol_shapeCast (A H : (⟨2, ![R, N]⟩ : Shape).Idx → EReal) (d : (⟨1, ![R]⟩ : Shape).Idx → EReal)
    (b : (⟨1, ![N]⟩ : Shape).Idx → EReal) (hd : (⟨1, ![R]⟩ : Shape).ShapeCasts ⟨2, ![R, 1]⟩)
    (hb : (⟨1, ![N]⟩ : Shape).ShapeCasts ⟨2, ![1, N]⟩) :
    updateCol A H (shapeCast ⟨2, ![R, 1]⟩ d hd) (shapeCast ⟨2, ![1, N]⟩ b hb) = update A H d b := by
  funext j
  obtain ⟨p, q, rfl⟩ : ∃ (p : Fin R) (q : Fin N), j = ix2 p q := ⟨j 0, j 1, eq_ix2 j⟩
  rw [updateCol_apply, update_apply, ColumnInDim.shapeCast_column, RowVector.shapeCast_row]

/-- A kernel body's spelling of the update on one block, at entry (r, q) of the block. -/
theorem block_apply (hN : N ≠ 1) (a h : FVec Ideal ⟨2, ![R, N]⟩ .f32) (d : FVec Ideal ⟨2, ![R, 1]⟩ .f32)
    (b : FVec Ideal ⟨2, ![1, N]⟩ .f32)
    (h1 : (⟨2, ![R, N]⟩ : Shape).ShapeCasts ⟨2, ![R, N]⟩) (h2 : (⟨2, ![R, 1]⟩ : Shape).ShapeCasts ⟨2, ![R, 1]⟩)
    (h3 : (⟨2, ![1, N]⟩ : Shape).ShapeCasts ⟨2, ![1, N]⟩)
    (hd : (⟨2, ![R, 1]⟩ : Shape).Broadcasts ⟨2, ![R, N]⟩) (hb : (⟨2, ![1, N]⟩ : Shape).Broadcasts ⟨2, ![R, N]⟩)
    (r : Fin R) (q : Fin N) :
    maximumf
        (addf
          (addf (shapeCast ⟨2, ![R, N]⟩ a h1)
            (mulf (broadcastTo ⟨2, ![R, N]⟩ (mulf (shapeCast ⟨2, ![R, 1]⟩ d h2) (shapeCast ⟨2, ![R, 1]⟩ d h2)) hd)
              (shapeCast ⟨2, ![R, N]⟩ h h1)))
          (broadcastTo ⟨2, ![R, N]⟩ (shapeCast ⟨2, ![1, N]⟩ b h3) hb))
        (broadcast ⟨2, ![R, N]⟩ (Scalar.ofBits (F := Ideal) .f32 0x00000000#32)) (ix2 r q)
      = max ((a (ix2 r q) + (d (ix2 r (0 : Fin 1)) * d (ix2 r (0 : Fin 1))) * h (ix2 r q)) + b (ix2 (0 : Fin 1) q)) zero := by
  show max ((shapeCast ⟨2, ![R, N]⟩ a h1 (ix2 r q)
        + broadcastTo ⟨2, ![R, N]⟩ (mulf (shapeCast ⟨2, ![R, 1]⟩ d h2) (shapeCast ⟨2, ![R, 1]⟩ d h2)) hd (ix2 r q)
          * shapeCast ⟨2, ![R, N]⟩ h h1 (ix2 r q))
      + broadcastTo ⟨2, ![R, N]⟩ (shapeCast ⟨2, ![1, N]⟩ b h3) hb (ix2 r q)) zero = _
  rw [Combine.broadcastTo_column, RowVector.broadcastTo_row hN]
  simp only [shapeCast_self]
  rfl

/-- A host's spelling of the update IS the update. -/
theorem host_eq (hN : N ≠ 1) (A H : FVec Ideal ⟨2, ![R, N]⟩ .f32) (d : FVec Ideal ⟨1, ![R]⟩ .f32)
    (b : FVec Ideal ⟨1, ![N]⟩ .f32)
    (hc : (⟨1, ![R]⟩ : Shape).BroadcastsInDim ⟨2, ![R, 1]⟩ (![0] : Fin 1 → Fin 2))
    (hl : (⟨2, ![R, 1]⟩ : Shape).BroadcastsInDim ⟨2, ![R, N]⟩ (![0, 1] : Fin 2 → Fin 2))
    (hr : (⟨1, ![N]⟩ : Shape).BroadcastsInDim ⟨2, ![1, N]⟩ (![1] : Fin 1 → Fin 2))
    (hrr : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2)) :
    maximumf
        (addf
          (addf A (mulf (broadcastInDim ⟨2, ![R, N]⟩ ![0, 1] hl (broadcastInDim ⟨2, ![R, 1]⟩ ![0] hc (mulf d d))) H))
          (broadcastInDim ⟨2, ![R, N]⟩ ![0, 1] hrr (broadcastInDim ⟨2, ![1, N]⟩ ![1] hr b)))
        (broadcastInDim ⟨2, ![R, N]⟩ ![] h0 (constant (F := Ideal) ⟨0, ![]⟩ .f32 0x00000000#32))
      = update A H d b := by
  funext j
  obtain ⟨p, q, rfl⟩ : ∃ (p : Fin R) (q : Fin N), j = ix2 p q := ⟨j 0, j 1, eq_ix2 j⟩
  show max ((A (ix2 p q)
        + broadcastInDim ⟨2, ![R, N]⟩ ![0, 1] hl (broadcastInDim ⟨2, ![R, 1]⟩ ![0] hc (mulf d d)) (ix2 p q) * H (ix2 p q))
      + broadcastInDim ⟨2, ![R, N]⟩ ![0, 1] hrr (broadcastInDim ⟨2, ![1, N]⟩ ![1] hr b) (ix2 p q))
      (broadcastInDim ⟨2, ![R, N]⟩ ![] h0 (constant (F := Ideal) ⟨0, ![]⟩ .f32 0x00000000#32) (ix2 p q)) = _
  rw [ColumnInDim.broadcastInDim_lanes, ColumnInDim.broadcastInDim_column, RowInDim.broadcastInDim_rows hN,
    RowOfVector.broadcastInDim_row hN, Combine.broadcastInDim_scalar, update_apply]
  rfl

/-- A host's clamp at zero IS the clamp. -/
theorem host_relu_eq (X : FVec Ideal ⟨2, ![R, N]⟩ .f32)
    (h0 : (⟨0, ![]⟩ : Shape).BroadcastsInDim ⟨2, ![R, N]⟩ (![] : Fin 0 → Fin 2)) :
    maximumf X (broadcastInDim ⟨2, ![R, N]⟩ ![] h0 (constant (F := Ideal) ⟨0, ![]⟩ .f32 0x00000000#32)) = relu X :=
  Combine.host_relu_eq X h0

/-- A kernel body's spelling of an affine layer whose offset is a 1×N row, on one block, at entry (p, q). -/
theorem affine_block_apply (D : DotDims ⟨2, ![R, K]⟩ ⟨2, ![K, N]⟩ ⟨2, ![R, N]⟩) (hD : D = DotDims.plain R K N)
    (hN : N ≠ 1) (prec : Option ContractPrecision) (X : FVec Ideal ⟨2, ![R, K]⟩ .f32)
    (W : FVec Ideal ⟨2, ![K, N]⟩ .f32) (B : FVec Ideal ⟨2, ![1, N]⟩ .f32)
    (hX : (⟨2, ![R, K]⟩ : Shape).ShapeCasts ⟨2, ![R, K]⟩) (hB : (⟨2, ![1, N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    addf (matmul D prec (truncf .bf16 (shapeCast ⟨2, ![R, K]⟩ X hX) hlt) (truncf .bf16 W hlt)
          (constant (F := Ideal) ⟨2, ![R, N]⟩ .f32 0x00000000#32))
        (broadcastTo ⟨2, ![R, N]⟩ (shapeCast ⟨2, ![1, N]⟩ B hB) hbc) (ix2 p q)
      = AffineRow.rowAffine X W B (ix2 p q) := by
  show matmul D prec (truncf .bf16 (shapeCast ⟨2, ![R, K]⟩ X hX) hlt) (truncf .bf16 W hlt)
        (constant (F := Ideal) ⟨2, ![R, N]⟩ .f32 0x00000000#32) (ix2 p q)
      + broadcastTo ⟨2, ![R, N]⟩ (shapeCast ⟨2, ![1, N]⟩ B hB) hbc (ix2 p q) = _
  rw [RowVector.broadcastTo_row hN]
  simp only [shapeCast_self]
  rw [AffineRow.rowAffine_apply]
  exact congrArg (· + B (ix2 (0 : Fin 1) q))
    (PlainDot.matmul_zero_apply D hD prec (truncf .bf16 X hlt) (truncf .bf16 W hlt) p q)

/-- The same followed by the clamp (a maximum with a splat zero), at entry (p, q). -/
theorem affine_relu_block_apply (D : DotDims ⟨2, ![R, K]⟩ ⟨2, ![K, N]⟩ ⟨2, ![R, N]⟩) (hD : D = DotDims.plain R K N)
    (hN : N ≠ 1) (prec : Option ContractPrecision) (X : FVec Ideal ⟨2, ![R, K]⟩ .f32)
    (W : FVec Ideal ⟨2, ![K, N]⟩ .f32) (B : FVec Ideal ⟨2, ![1, N]⟩ .f32)
    (hX : (⟨2, ![R, K]⟩ : Shape).ShapeCasts ⟨2, ![R, K]⟩) (hB : (⟨2, ![1, N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    maximumf
        (addf (matmul D prec (truncf .bf16 (shapeCast ⟨2, ![R, K]⟩ X hX) hlt) (truncf .bf16 W hlt)
            (constant (F := Ideal) ⟨2, ![R, N]⟩ .f32 0x00000000#32))
          (broadcastTo ⟨2, ![R, N]⟩ (shapeCast ⟨2, ![1, N]⟩ B hB) hbc))
        (broadcast ⟨2, ![R, N]⟩ (Scalar.ofBits (F := Ideal) .f32 0x00000000#32)) (ix2 p q)
      = relu (AffineRow.rowAffine X W B) (ix2 p q) := by
  show max (addf (matmul D prec (truncf .bf16 (shapeCast ⟨2, ![R, K]⟩ X hX) hlt) (truncf .bf16 W hlt)
            (constant (F := Ideal) ⟨2, ![R, N]⟩ .f32 0x00000000#32))
          (broadcastTo ⟨2, ![R, N]⟩ (shapeCast ⟨2, ![1, N]⟩ B hB) hbc) (ix2 p q)) zero = _
  rw [affine_block_apply D hD hN]
  rfl

end Cert.NodeUpdate

end
-- ==== Proof.Region1.lean ====
/-
  Region 1: one node update on a block of 2000 nodes. The block reads the same 2000 rows of the summed
  messages A and of the projected features H, the same 2000 entries of the factor's column D, and the whole
  offset row B; it writes the same 2000 rows of the output. So what point t flushes is block t of the update
  over the column and row views, the 25 blocks tile the rows, and the output array ends as that update of the
  arrays the region was entered with — for any entry contents V.
-/
import proofs.«136079_j24970939859424_1_alg».proof.Proof.Gen.KernelIdeal.Frame
import Idealize.ShloMosaic.Lib.Pipeline.Value
import Idealize.ShloMosaic.Lib.ValueIdx
import Idealize.ShloMosaic.PureOps.Ideal.Laws
import proofs.«136079_j24970939859424_1_alg».proof.Proof.LibNodeUpdate

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at entry (p, q) of the block. -/
theorem pay (d : Vec Ideal S2000x1 .f32) (h a : Vec Ideal S2000x64 .f32) (b : Vec Ideal S1x64 .f32)
    (p : Fin 2000) (q : Fin 64) :
    k1_pay1 d h a b (ix2 p q)
      = max ((a (ix2 p q) + (d (ix2 p (0 : Fin 1)) * d (ix2 p (0 : Fin 1))) * h (ix2 p q)) + b (ix2 (0 : Fin 1) q)) NodeUpdate.zero := by
  unfold k1_pay1
  exact NodeUpdate.block_apply (by decide) a h d b _ _ _ _ _ p q

/-- One entry of a block against one entry of the update: the block's row is the array's row, the lane is the lane. -/
theorem point (A H : S50000x64.Idx → EReal) (D : S50000x1.Idx → EReal) (B : S1x64.Idx → EReal)
    (x0 x1 : Vec Ideal S2000x64 .f32) (x2 : Vec Ideal S2000x1 .f32) (x3 : Vec Ideal S1x64 .f32)
    (y : S2000x64.Idx) (i : S50000x64.Idx)
    (h0 : x0 y = A i) (h1 : x1 y = H i) (h2 : x2 (ix2 (y 0) (0 : Fin 1)) = D (ix2 (i 0) (0 : Fin 1)))
    (h3 : ∀ u, x3 u = B u) (hq : (y 1).val = (i 1).val) :
    k1_pay1 x2 x1 x0 x3 y = NodeUpdate.updateCol A H D B i := by
  obtain ⟨p, q, rfl⟩ : ∃ (p : Fin 2000) (q : Fin 64), y = ix2 p q := ⟨y 0, y 1, eq_ix2 y⟩
  obtain ⟨p', q', rfl⟩ : ∃ (p' : Fin 50000) (q' : Fin 64), i = ix2 p' q' := ⟨i 0, i 1, eq_ix2 i⟩
  obtain rfl : q = q' := Fin.ext hq
  have h2' : x2 (ix2 p (0 : Fin 1)) = D (ix2 p' (0 : Fin 1)) := h2
  rw [pay, NodeUpdate.updateCol_apply, h0, h1, h2', h3]

/-- The printed index maps, decided over the grid: the three row-blocked inputs move with the output down the
    rows, the offset row stays put. -/
theorem idx_facts : ∀ t : Fin cfg1.N, win1_0.index t (0 : Fin 2) = win1_4.index t (0 : Fin 2)
    ∧ win1_0.index t (1 : Fin 2) = 0 ∧ win1_1.index t (0 : Fin 2) = win1_4.index t (0 : Fin 2)
    ∧ win1_1.index t (1 : Fin 2) = 0 ∧ win1_2.index t (0 : Fin 2) = win1_4.index t (0 : Fin 2)
    ∧ win1_2.index t (1 : Fin 2) = 0 ∧ win1_3.index t (0 : Fin 2) = 0 ∧ win1_3.index t (1 : Fin 2) = 0
    ∧ win1_4.index t (1 : Fin 2) = 0 :=
  (by decide +kernel : ∀ t : Fin grid1.N, _)

/-- What point t writes back is block t of the update of the arrays as the region finds them. -/
theorem flushed_eq (c : Dev nD) (t : Fin cfg1.N) :
    (dat1 V c).flushed 4 t = ((cfg1.win 4).blk t).view.read (Elt Ideal)
      (NodeUpdate.updateCol (V c main_v39) (V c main_v11) (V c main_v40) (V c main_v41)) := by
  show (cfg1.win 4).cut (grid1.coords t) ((dat1 V c).after 4 t) = _
  rw [after1_4]
  unfold out1_4
  rw [View.canon_unit_zero hz]
  simp only [View.ld_unit_zero (S := S2000x64) hz, View.ld_unit_zero (S := S2000x1) hz, View.ld_unit_zero (S := S1x64) hz]
  obtain ⟨e0, e1, e2, e3, e4, e5, e6, e7, e8⟩ := idx_facts t
  funext j
  refine point (V c main_v39) (V c main_v11) (V c main_v40) (V c main_v41) _ _ _ _ j (((cfg1.win 4).blk t).view.emb j) ?_ ?_ ?_ (fun u => ?_) ?_
  · show V c main_v39 (((cfg1.win 0).blk t).view.emb j) = V c main_v39 (((cfg1.win 4).blk t).view.emb j)
    refine congrArg _ ?_
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 64 + 1 * (j 1).val = win1_4.index t (1 : Fin 2) * 64 + 1 * (j 1).val; omega
  · show V c main_v11 (((cfg1.win 1).blk t).view.emb j) = V c main_v11 (((cfg1.win 4).blk t).view.emb j)
    refine congrArg _ ?_
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 64 + 1 * (j 1).val = win1_4.index t (1 : Fin 2) * 64 + 1 * (j 1).val; omega
  · show V c main_v40 (((cfg1.win 2).blk t).view.emb (ix2 (j 0) (0 : Fin 1))) = V c main_v40 (ix2 ((((cfg1.win 4).blk t).view.emb j) 0) (0 : Fin 1))
    refine congrArg _ ?_
    funext a; apply Fin.ext
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 1 + 1 * 0 = 0; omega
  · show V c main_v41 (((cfg1.win 3).blk t).view.emb u) = V c main_v41 u
    refine congrArg _ ?_
    funext a; apply Fin.ext
    match a with
    | ⟨0, _⟩ => show win1_3.index t (0 : Fin 2) * 1 + 1 * (u 0).val = (u 0).val; omega
    | ⟨1, _⟩ => show win1_3.index t (1 : Fin 2) * 64 + 1 * (u 1).val = (u 1).val; omega
  · show (j 1).val = win1_4.index t (1 : Fin 2) * 64 + 1 * (j 1).val
    omega

/-- An index of the output array is in point t's block iff each coordinate is in the block's range on its axis. -/
theorem mem_blk (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v42).slice (win1_4.rect t)).set ↔ _
  rw [View.set_slice_whole, Rect.mem_set_unit]
  exact Iff.rfl

/-- Every block of rows is some point's. -/
theorem idx_onto : ∀ q0 : Fin 25, ∃ t : Fin cfg1.N, win1_4.index t = ![q0.val, 0] :=
  (by decide +kernel : ∀ q0 : Fin 25, ∃ t : Fin grid1.N, win1_4.index t = ![q0.val, 0])

/-- The 25 blocks of 2000 rows tile the 50000 rows: every index is in the block of the point its row selects. -/
theorem cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-- The output array after the region: the update of the arrays the region was entered with. -/
theorem final (c : Dev nD) : (dat1 V c).arrAt 4 cfg1.N
    = NodeUpdate.updateCol (V c main_v39) (V c main_v11) (V c main_v40) (V c main_v41) :=
  (dat1 V c).arrAt_eq_of_cover 4 _ (fun t _ => flushed_eq V c t) cover

end Cert.KernelIdeal.Region1

end
-- ==== Proof.Region2.lean ====
/-
  Region 2: a block of 2000 rows of X (50000 × 64) times the whole matrix W (64 × 64), written to the same
  2000 rows of the output. Row r of block t is row 2000·t + r of X, so what point t flushes is block t of the
  product X · W, the 25 blocks tile the rows, and the output array ends as X · W — for any contents V the
  region is entered with.
-/
import proofs.«136079_j24970939859424_1_alg».proof.Proof.Gen.KernelIdeal.Frame
import Idealize.ShloMosaic.Lib.Pipeline.Value
import Idealize.ShloMosaic.Lib.ValueIdx
import Idealize.ShloMosaic.PureOps.Ideal.Laws
import proofs.«136079_j24970939859424_1_alg».proof.Proof.LibPlainDot
import proofs.«136079_j24970939859424_1_alg».proof.Proof.LibProduct

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at entry (p, q) of the block: the row of the block against the column of W. -/
theorem pay (x0 : Vec Ideal S2000x64 .f32) (x1 : Vec Ideal S64x64 .f32) (p : Fin 2000) (q : Fin 64) :
    k2_pay1 x0 x1 (ix2 p q) = ∑ c : Fin 64, x0 (ix2 p c) * x1 (ix2 c q) := by
  unfold k2_pay1
  refine (PlainDot.matmul_zero_apply dot_S2000x64_S64x64_S2000x64_1_0_0_1_n_n rfl none
    (truncf .bf16 (shapeCast S2000x64 x0 shapeCasts_S2000x64_S2000x64) bitsLt_bf16_f32) (truncf .bf16 x1 bitsLt_bf16_f32) p q).trans ?_
  refine Finset.sum_congr rfl fun c _ => ?_
  show shapeCast S2000x64 x0 shapeCasts_S2000x64_S2000x64 (ix2 p c) * x1 (ix2 c q) = _
  rw [shapeCast_self]

/-- One entry of a block against one entry of the product: the block's row is the array's row, the lane is the lane. -/
theorem point (X : S50000x64.Idx → EReal) (W : S64x64.Idx → EReal) (x0 : Vec Ideal S2000x64 .f32)
    (x1 : Vec Ideal S64x64 .f32) (y : S2000x64.Idx) (i : S50000x64.Idx)
    (h0 : ∀ k : Fin 64, x0 (ix2 (y 0) k) = X (ix2 (i 0) k)) (h1 : ∀ u, x1 u = W u) (hq : (y 1).val = (i 1).val) :
    k2_pay1 x0 x1 y = Product.prod X W i := by
  obtain ⟨p, q, rfl⟩ : ∃ (p : Fin 2000) (q : Fin 64), y = ix2 p q := ⟨y 0, y 1, eq_ix2 y⟩
  obtain ⟨p', q', rfl⟩ : ∃ (p' : Fin 50000) (q' : Fin 64), i = ix2 p' q' := ⟨i 0, i 1, eq_ix2 i⟩
  obtain rfl : q = q' := Fin.ext hq
  rw [pay, Product.prod_apply]
  exact Finset.sum_congr rfl fun k _ => congrArg₂ (· * ·) (h0 k) (h1 _)

/-- The printed index maps, decided over the grid: X's block and the output's block move together down the rows,
    W's block stays put. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- What point t writes back is block t of the product of the arrays as the region finds them. -/
theorem flushed_eq (c : Dev nD) (t : Fin cfg2.N) :
    (dat2 V c).flushed 2 t = ((cfg2.win 2).blk t).view.read (Elt Ideal) (Product.prod (V c main_v42) (V c main_arg4)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x64) hz]
  obtain ⟨e0, e1, e2, e3, e4⟩ := idx_facts t
  funext j
  refine point (V c main_v42) (V c main_arg4) _ _ j (((cfg2.win 2).blk t).view.emb j) (fun k => ?_) (fun u => ?_) ?_
  · show V c main_v42 (((cfg2.win 0).blk t).view.emb (ix2 (j 0) k)) = V c main_v42 (ix2 ((((cfg2.win 2).blk t).view.emb j) 0) k)
    refine congrArg _ ?_
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 64 + 1 * k.val = k.val; omega
  · show V c main_arg4 (((cfg2.win 1).blk t).view.emb u) = V c main_arg4 u
    refine congrArg _ ?_
    funext a; apply Fin.ext
    match a with
    | ⟨0, _⟩ => show win2_1.index t (0 : Fin 2) * 64 + 1 * (u 0).val = (u 0).val; omega
    | ⟨1, _⟩ => show win2_1.index t (1 : Fin 2) * 64 + 1 * (u 1).val = (u 1).val; omega
  · show (j 1).val = win2_2.index t (1 : Fin 2) * 64 + 1 * (j 1).val
    omega

/-- An index of the output array is in point t's block iff each coordinate is in the block's range on its axis. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v43).slice (win2_2.rect t)).set ↔ _
  rw [View.set_slice_whole, Rect.mem_set_unit]
  exact Iff.rfl

/-- Every block of rows is some point's. -/
theorem idx_onto : ∀ q0 : Fin 25, ∃ t : Fin cfg2.N, win2_2.index t = ![q0.val, 0] :=
  (by decide +kernel : ∀ q0 : Fin 25, ∃ t : Fin grid2.N, win2_2.index t = ![q0.val, 0])

/-- The 25 blocks of 2000 rows tile the 50000 rows: every index is in the block of the point its row selects. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The output array after the region: the product of the arrays the region was entered with. -/
theorem final (c : Dev nD) : (dat2 V c).arrAt 2 cfg2.N = Product.prod (V c main_v42) (V c main_arg4) :=
  (dat2 V c).arrAt_eq_of_cover 2 _ (fun t _ => flushed_eq V c t) cover

end Cert.KernelIdeal.Region2

end
-- ==== Proof.Region3.lean ====
/-
  Region 3: one node update on a block of 2000 nodes. The block reads the same 2000 rows of the summed
  messages A and of the projected features H, the same 2000 entries of the factor's column D, and the whole
  offset row B; it writes the same 2000 rows of the output. So what point t flushes is block t of the update
  over the column and row views, the 25 blocks tile the rows, and the output array ends as that update of the
  arrays the region was entered with — for any entry contents V.
-/
import proofs.«136079_j24970939859424_1_alg».proof.Proof.Gen.KernelIdeal.Frame
import Idealize.ShloMosaic.Lib.Pipeline.Value
import Idealize.ShloMosaic.Lib.ValueIdx
import Idealize.ShloMosaic.PureOps.Ideal.Laws
import proofs.«136079_j24970939859424_1_alg».proof.Proof.LibNodeUpdate

set_option maxRecDepth 16384

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at entry (p, q) of the block. -/
theorem pay (d : Vec Ideal S2000x1 .f32) (h a : Vec Ideal S2000x64 .f32) (b : Vec Ideal S1x64 .f32)
    (p : Fin 2000) (q : Fin 64) :
    k3_pay1 d h a b (ix2 p q)
      = max ((a (ix2 p q) + (d (ix2 p (0 : Fin 1)) * d (ix2 p (0 : Fin 1))) * h (ix2 p q)) + b (ix2 (0 : Fin 1) q)) NodeUpdate.zero := by
  unfold k3_pay1
  exact NodeUpdate.block_apply (by decide) a h d b _ _ _ _ _ p q

/-- One entry of a block against one entry of the update: the block's row is the array's row, the lane is the lane. -/
theorem point (A H : S50000x64.Idx → EReal) (D : S50000x1.Idx → EReal) (B : S1x64.Idx → EReal)
    (x0 x1 : Vec Ideal S2000x64 .f32) (x2 : Vec Ideal S2000x1 .f32) (x3 : Vec Ideal S1x64 .f32)
    (y : S2000x64.Idx) (i : S50000x64.Idx)
    (h0 : x0 y = A i) (h1 : x1 y = H i) (h2 : x2 (ix2 (y 0) (0 : Fin 1)) = D (ix2 (i 0) (0 : Fin 1)))
    (h3 : ∀ u, x3 u = B u) (hq : (y 1).val = (i 1).val) :
    k3_pay1 x2 x1 x0 x3 y = NodeUpdate.updateCol A H D B i := by
  obtain ⟨p, q, rfl⟩ : ∃ (p : Fin 2000) (q : Fin 64), y = ix2 p q := ⟨y 0, y 1, eq_ix2 y⟩
  obtain ⟨p', q', rfl⟩ : ∃ (p' : Fin 50000) (q' : Fin 64), i = ix2 p' q' := ⟨i 0, i 1, eq_ix2 i⟩
  obtain rfl : q = q' := Fin.ext hq
  have h2' : x2 (ix2 p (0 : Fin 1)) = D (ix2 p' (0 : Fin 1)) := h2
  rw [pay, NodeUpdate.updateCol_apply, h0, h1, h2', h3]

/-- The printed index maps, decided over the grid: the three row-blocked inputs move with the output down the
    rows, the offset row stays put. -/
theorem idx_facts : ∀ t : Fin cfg3.N, win3_0.index t (0 : Fin 2) = win3_4.index t (0 : Fin 2)
    ∧ win3_0.index t (1 : Fin 2) = 0 ∧ win3_1.index t (0 : Fin 2) = win3_4.index t (0 : Fin 2)
    ∧ win3_1.index t (1 : Fin 2) = 0 ∧ win3_2.index t (0 : Fin 2) = win3_4.index t (0 : Fin 2)
    ∧ win3_2.index t (1 : Fin 2) = 0 ∧ win3_3.index t (0 : Fin 2) = 0 ∧ win3_3.index t (1 : Fin 2) = 0
    ∧ win3_4.index t (1 : Fin 2) = 0 :=
  (by decide +kernel : ∀ t : Fin grid3.N, _)

/-- What point t writes back is block t of the update of the arrays as the region finds them. -/
theorem flushed_eq (c : Dev nD) (t : Fin cfg3.N) :
    (dat3 V c).flushed 4 t = ((cfg3.win 4).blk t).view.read (Elt Ideal)
      (NodeUpdate.updateCol (V c main_v71) (V c main_v43) (V c main_v72) (V c main_v73)) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S1x64) hz]
  obtain ⟨e0, e1, e2, e3, e4, e5, e6, e7, e8⟩ := idx_facts t
  funext j
  refine point (V c main_v71) (V c main_v43) (V c main_v72) (V c main_v73) _ _ _ _ j (((cfg3.win 4).blk t).view.emb j) ?_ ?_ ?_ (fun u => ?_) ?_
  · show V c main_v71 (((cfg3.win 0).blk t).view.emb j) = V c main_v71 (((cfg3.win 4).blk t).view.emb j)
    refine congrArg _ ?_
    funext a; apply Fin.ext
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 64 + 1 * (j 1).val = win3_4.index t (1 : Fin 2) * 64 + 1 * (j 1).val; omega
  · show V c main_v43 (((cfg3.win 1).blk t).view.emb j) = V c main_v43 (((cfg3.win 4).blk t).view.emb j)
    refine congrArg _ ?_
    funext a; apply Fin.ext
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 64 + 1 * (j 1).val = win3_4.index t (1 : Fin 2) * 64 + 1 * (j 1).val; omega
  · show V c main_v72 (((cfg3.win 2).blk t).view.emb (ix2 (j 0) (0 : Fin 1))) = V c main_v72 (ix2 ((((cfg3.win 4).blk t).view.emb j) 0) (0 : Fin 1))
    refine congrArg _ ?_
    funext a; apply Fin.ext
    match a with
    | ⟨0, _⟩ => show win3_2.index t (0 : Fin 2) * 2000 + 1 * (j 0).val = win3_4.index t (0 : Fin 2) * 2000 + 1 * (j 0).val; omega
    | ⟨1, _⟩ => show win3_2.index t (1 : Fin 2) * 1 + 1 * 0 = 0; omega
  · show V c main_v73 (((cfg3.win 3).blk t).view.emb u) = V c main_v73 u
    refine congrArg _ ?_
    funext a; apply Fin.ext
    match a with
    | ⟨0, _⟩ => show win3_3.index t (0 : Fin 2) * 1 + 1 * (u 0).val = (u 0).val; omega
    | ⟨1, _⟩ => show win3_3.index t (1 : Fin 2) * 64 + 1 * (u 1).val = (u 1).val; omega
  · show (j 1).val = win3_4.index t (1 : Fin 2) * 64 + 1 * (j 1).val
    omega

/-- An index of the output array is in point t's block iff each coordinate is in the block's range on its axis. -/
theorem mem_blk (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v74).slice (win3_4.rect t)).set ↔ _
  rw [View.set_slice_whole, Rect.mem_set_unit]
  exact Iff.rfl

/-- Every block of rows is some point's. -/
theorem idx_onto : ∀ q0 : Fin 25, ∃ t : Fin cfg3.N, win3_4.index t = ![q0.val, 0] :=
  (by decide +kernel : ∀ q0 : Fin 25, ∃ t : Fin grid3.N, win3_4.index t = ![q0.val, 0])

/-- The 25 blocks of 2000 rows tile the 50000 rows: every index is in the block of the point its row selects. -/
theorem cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ := idx_onto ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 64 ≤ (i 1).val ∧ (i 1).val < win3_4.index t (1 : Fin 2) * 64 + 64; omega

/-- The output array after the region: the update of the arrays the region was entered with. -/
theorem final (c : Dev nD) : (dat3 V c).arrAt 4 cfg3.N
    = NodeUpdate.updateCol (V c main_v71) (V c main_v43) (V c main_v72) (V c main_v73) :=
  (dat3 V c).arrAt_eq_of_cover 4 _ (fun t _ => flushed_eq V c t) cover

end Cert.KernelIdeal.Region3

end
-- ==== Proof.Region4.lean ====
/-
  Region 4: a block of 2000 rows of X (50000 × 64) times the whole matrix W (64 × 64), written to the same
  2000 rows of the output. Row r of block t is row 2000·t + r of X, so what point t flushes is block t of the
  product X · W, the 25 blocks tile the rows, and the output array ends as X · W — for any contents V the
  region is entered with.
-/
import proofs.«136079_j24970939859424_1_alg».proof.Proof.Gen.KernelIdeal.Frame
import Idealize.ShloMosaic.Lib.Pipeline.Value
import Idealize.ShloMosaic.Lib.ValueIdx
import Idealize.ShloMosaic.PureOps.Ideal.Laws
import proofs.«136079_j24970939859424_1_alg».proof.Proof.LibPlainDot
import proofs.«136079_j24970939859424_1_alg».proof.Proof.LibProduct

set_option maxRecDepth 16384

noncomputable section

open scoped BigOperators

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at entry (p, q) of the block: the row of the block against the column of W. -/
theorem pay (x0 : Vec Ideal S2000x64 .f32) (x1 : Vec Ideal S64x64 .f32) (p : Fin 2000) (q : Fin 64) :
    k4_pay1 x0 x1 (ix2 p q) = ∑ c : Fin 64, x0 (ix2 p c) * x1 (ix2 c q) := by
  unfold k4_pay1
  refine (PlainDot.matmul_zero_apply dot_S2000x64_S64x64_S2000x64_1_0_0_1_n_n rfl none
    (truncf .bf16 (shapeCast S2000x64 x0 shapeCasts_S2000x64_S2000x64) bitsLt_bf16_f32) (truncf .bf16 x1 bitsLt_bf16_f32) p q).trans ?_
  refine Finset.sum_congr rfl fun c _ => ?_
  show shapeCast S2000x64 x0 shapeCasts_S2000x64_S2000x64 (ix2 p c) * x1 (ix2 c q) = _
  rw [shapeCast_self]

/-- One entry of a block against one entry of the product: the block's row is the array's row, the lane is the lane. -/
theorem point (X : S50000x64.Idx → EReal) (W : S64x64.Idx → EReal) (x0 : Vec Ideal S2000x64 .f32)
    (x1 : Vec Ideal S64x64 .f32) (y : S2000x64.Idx) (i : S50000x64.Idx)
    (h0 : ∀ k : Fin 64, x0 (ix2 (y 0) k) = X (ix2 (i 0) k)) (h1 : ∀ u, x1 u = W u) (hq : (y 1).val = (i 1).val) :
    k4_pay1 x0 x1 y = Product.prod X W i := by
  obtain ⟨p, q, rfl⟩ : ∃ (p : Fin 2000) (q : Fin 64), y = ix2 p q := ⟨y 0, y 1, eq_ix2 y⟩
  obtain ⟨p', q', rfl⟩ : ∃ (p' : Fin 50000) (q' : Fin 64), i = ix2 p' q' := ⟨i 0, i 1, eq_ix2 i⟩
  obtain rfl : q = q' := Fin.ext hq
  rw [pay, Product.prod_apply]
  exact Finset.sum_congr rfl fun k _ => congrArg₂ (· * ·) (h0 k) (h1 _)

/-- The printed index maps, decided over the grid: X's block and the output's block move together down the rows,
    W's block stays put. -/
theorem idx_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 :=
  (by decide +kernel : ∀ t : Fin grid4.N, _)

/-- What point t writes back is block t of the product of the arrays as the region finds them. -/
theorem flushed_eq (c : Dev nD) (t : Fin cfg4.N) :
    (dat4 V c).flushed 2 t = ((cfg4.win 2).blk t).view.read (Elt Ideal) (Product.prod (V c main_v74) (V c main_arg6)) := by
  show (cfg4.win 2).cut (grid4.coords t) ((dat4 V c).after 2 t) = _
  rw [after4_2]
  unfold out4_2
  rw [View.canon_unit_zero hz]
  simp only [View.ld_unit_zero (S := S2000x64) hz, View.ld_unit_zero (S := S64x64) hz]
  obtain ⟨e0, e1, e2, e3, e4⟩ := idx_facts t
  funext j
  refine point (V c main_v74) (V c main_arg6) _ _ j (((cfg4.win 2).blk t).view.emb j) (fun k => ?_) (fun u => ?_) ?_
  · show V c main_v74 (((cfg4.win 0).blk t).view.emb (ix2 (j 0) k)) = V c main_v74 (ix2 ((((cfg4.win 2).blk t).view.emb j) 0) k)
    refine congrArg _ ?_
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 64 + 1 * k.val = k.val; omega
  · show V c main_arg6 (((cfg4.win 1).blk t).view.emb u) = V c main_arg6 u
    refine congrArg _ ?_
    funext a; apply Fin.ext
    match a with
    | ⟨0, _⟩ => show win4_1.index t (0 : Fin 2) * 64 + 1 * (u 0).val = (u 0).val; omega
    | ⟨1, _⟩ => show win4_1.index t (1 : Fin 2) * 64 + 1 * (u 1).val = (u 1).val; omega
  · show (j 1).val = win4_2.index t (1 : Fin 2) * 64 + 1 * (j 1).val
    omega

/-- An index of the output array is in point t's block iff each coordinate is in the block's range on its axis. -/
theorem mem_blk (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v75).slice (win4_2.rect t)).set ↔ _
  rw [View.set_slice_whole, Rect.mem_set_unit]
  exact Iff.rfl

/-- Every block of rows is some point's. -/
theorem idx_onto : ∀ q0 : Fin 25, ∃ t : Fin cfg4.N, win4_2.index t = ![q0.val, 0] :=
  (by decide +kernel : ∀ q0 : Fin 25, ∃ t : Fin grid4.N, win4_2.index t = ![q0.val, 0])

/-- The 25 blocks of 2000 rows tile the 50000 rows: every index is in the block of the point its row selects. -/
theorem cover (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 64 ≤ (i 1).val ∧ (i 1).val < win4_2.index t (1 : Fin 2) * 64 + 64; omega

/-- The output array after the region: the product of the arrays the region was entered with. -/
theorem final (c : Dev nD) : (dat4 V c).arrAt 2 cfg4.N = Product.prod (V c main_v74) (V c main_arg6) :=
  (dat4 V c).arrAt_eq_of_cover 2 _ (fun t _ => flushed_eq V c t) cover

end Cert.KernelIdeal.Region4

end
-- ==== Proof.Region5.lean ====
/-
  Region 5: one node update on a block of 2000 nodes. The block reads the same 2000 rows of the summed
  messages A and of the projected features H, the same 2000 entries of the factor's column D, and the whole
  offset row B; it writes the same 2000 rows of the output. So what point t flushes is block t of the update
  over the column and row views, the 25 blocks tile the rows, and the output array ends as that update of the
  arrays the region was entered with — for any entry contents V.
-/
import proofs.«136079_j24970939859424_1_alg».proof.Proof.Gen.KernelIdeal.Frame
import Idealize.ShloMosaic.Lib.Pipeline.Value
import Idealize.ShloMosaic.Lib.ValueIdx
import Idealize.ShloMosaic.PureOps.Ideal.Laws
import proofs.«136079_j24970939859424_1_alg».proof.Proof.LibNodeUpdate

set_option maxRecDepth 16384

noncomputable section

open scoped BigOperators

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at entry (p, q) of the block. -/
theorem pay (d : Vec Ideal S2000x1 .f32) (h a : Vec Ideal S2000x64 .f32) (b : Vec Ideal S1x64 .f32)
    (p : Fin 2000) (q : Fin 64) :
    k5_pay1 d h a b (ix2 p q)
      = max ((a (ix2 p q) + (d (ix2 p (0 : Fin 1)) * d (ix2 p (0 : Fin 1))) * h (ix2 p q)) + b (ix2 (0 : Fin 1) q)) NodeUpdate.zero := by
  unfold k5_pay1
  exact NodeUpdate.block_apply (by decide) a h d b _ _ _ _ _ p q

/-- One entry of a block against one entry of the update: the block's row is the array's row, the lane is the lane. -/
theorem point (A H : S50000x64.Idx → EReal) (D : S50000x1.Idx → EReal) (B : S1x64.Idx → EReal)
    (x0 x1 : Vec Ideal S2000x64 .f32) (x2 : Vec Ideal S2000x1 .f32) (x3 : Vec Ideal S1x64 .f32)
    (y : S2000x64.Idx) (i : S50000x64.Idx)
    (h0 : x0 y = A i) (h1 : x1 y = H i) (h2 : x2 (ix2 (y 0) (0 : Fin 1)) = D (ix2 (i 0) (0 : Fin 1)))
    (h3 : ∀ u, x3 u = B u) (hq : (y 1).val = (i 1).val) :
    k5_pay1 x2 x1 x0 x3 y = NodeUpdate.updateCol A H D B i := by
  obtain ⟨p, q, rfl⟩ : ∃ (p : Fin 2000) (q : Fin 64), y = ix2 p q := ⟨y 0, y 1, eq_ix2 y⟩
  obtain ⟨p', q', rfl⟩ : ∃ (p' : Fin 50000) (q' : Fin 64), i = ix2 p' q' := ⟨i 0, i 1, eq_ix2 i⟩
  obtain rfl : q = q' := Fin.ext hq
  have h2' : x2 (ix2 p (0 : Fin 1)) = D (ix2 p' (0 : Fin 1)) := h2
  rw [pay, NodeUpdate.updateCol_apply, h0, h1, h2', h3]

/-- The printed index maps, decided over the grid: the three row-blocked inputs move with the output down the
    rows, the offset row stays put. -/
theorem idx_facts : ∀ t : Fin cfg5.N, win5_0.index t (0 : Fin 2) = win5_4.index t (0 : Fin 2)
    ∧ win5_0.index t (1 : Fin 2) = 0 ∧ win5_1.index t (0 : Fin 2) = win5_4.index t (0 : Fin 2)
    ∧ win5_1.index t (1 : Fin 2) = 0 ∧ win5_2.index t (0 : Fin 2) = win5_4.index t (0 : Fin 2)
    ∧ win5_2.index t (1 : Fin 2) = 0 ∧ win5_3.index t (0 : Fin 2) = 0 ∧ win5_3.index t (1 : Fin 2) = 0
    ∧ win5_4.index t (1 : Fin 2) = 0 :=
  (by decide +kernel : ∀ t : Fin grid5.N, _)

/-- What point t writes back is block t of the update of the arrays as the region finds them. -/
theorem flushed_eq (c : Dev nD) (t : Fin cfg5.N) :
    (dat5 V c).flushed 4 t = ((cfg5.win 4).blk t).view.read (Elt Ideal)
      (NodeUpdate.updateCol (V c main_v103) (V c main_v75) (V c main_v104) (V c main_v105)) := by
  show (cfg5.win 4).cut (grid5.coords t) ((dat5 V c).after 4 t) = _
  rw [after5_4]
  unfold out5_4
  rw [View.canon_unit_zero hz]
  simp only [View.ld_unit_zero (S := S2000x64) hz, View.ld_unit_zero (S := S2000x1) hz, View.ld_unit_zero (S := S1x64) hz]
  obtain ⟨e0, e1, e2, e3, e4, e5, e6, e7, e8⟩ := idx_facts t
  funext j
  refine point (V c main_v103) (V c main_v75) (V c main_v104) (V c main_v105) _ _ _ _ j (((cfg5.win 4).blk t).view.emb j) ?_ ?_ ?_ (fun u => ?_) ?_
  · show V c main_v103 (((cfg5.win 0).blk t).view.emb j) = V c main_v103 (((cfg5.win 4).blk t).view.emb j)
    refine congrArg _ ?_
    funext a; apply Fin.ext
    match a with
    | ⟨0, _⟩ => show win5_0.index t (0 : Fin 2) * 2000 + 1 * (j 0).val = win5_4.index t (0 : Fin 2) * 2000 + 1 * (j 0).val; omega
    | ⟨1, _⟩ => show win5_0.index t (1 : Fin 2) * 64 + 1 * (j 1).val = win5_4.index t (1 : Fin 2) * 64 + 1 * (j 1).val; omega
  · show V c main_v75 (((cfg5.win 1).blk t).view.emb j) = V c main_v75 (((cfg5.win 4).blk t).view.emb j)
    refine congrArg _ ?_
    funext a; apply Fin.ext
    match a with
    | ⟨0, _⟩ => show win5_1.index t (0 : Fin 2) * 2000 + 1 * (j 0).val = win5_4.index t (0 : Fin 2) * 2000 + 1 * (j 0).val; omega
    | ⟨1, _⟩ => show win5_1.index t (1 : Fin 2) * 64 + 1 * (j 1).val = win5_4.index t (1 : Fin 2) * 64 + 1 * (j 1).val; omega
  · show V c main_v104 (((cfg5.win 2).blk t).view.emb (ix2 (j 0) (0 : Fin 1))) = V c main_v104 (ix2 ((((cfg5.win 4).blk t).view.emb j) 0) (0 : Fin 1))
    refine congrArg _ ?_
    funext a; apply Fin.ext
    match a with
    | ⟨0, _⟩ => show win5_2.index t (0 : Fin 2) * 2000 + 1 * (j 0).val = win5_4.index t (0 : Fin 2) * 2000 + 1 * (j 0).val; omega
    | ⟨1, _⟩ => show win5_2.index t (1 : Fin 2) * 1 + 1 * 0 = 0; omega
  · show V c main_v105 (((cfg5.win 3).blk t).view.emb u) = V c main_v105 u
    refine congrArg _ ?_
    funext a; apply Fin.ext
    match a with
    | ⟨0, _⟩ => show win5_3.index t (0 : Fin 2) * 1 + 1 * (u 0).val = (u 0).val; omega
    | ⟨1, _⟩ => show win5_3.index t (1 : Fin 2) * 64 + 1 * (u 1).val = (u 1).val; omega
  · show (j 1).val = win5_4.index t (1 : Fin 2) * 64 + 1 * (j 1).val
    omega

/-- An index of the output array is in point t's block iff each coordinate is in the block's range on its axis. -/
theorem mem_blk (t : Fin cfg5.N) (i : S50000x64.Idx) :
    i ∈ ((cfg5.win 4).blk t).view.set ↔ ∀ a : Fin 2, win5_4.index t a * S2000x64.size a ≤ (i a).val ∧ (i a).val < win5_4.index t a * S2000x64.size a + S2000x64.size a := by
  show i ∈ ((View.whole main_v106).slice (win5_4.rect t)).set ↔ _
  rw [View.set_slice_whole, Rect.mem_set_unit]
  exact Iff.rfl

/-- Every block of rows is some point's. -/
theorem idx_onto : ∀ q0 : Fin 25, ∃ t : Fin cfg5.N, win5_4.index t = ![q0.val, 0] :=
  (by decide +kernel : ∀ q0 : Fin 25, ∃ t : Fin grid5.N, win5_4.index t = ![q0.val, 0])

/-- The 25 blocks of 2000 rows tile the 50000 rows: every index is in the block of the point its row selects. -/
theorem cover (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  obtain ⟨t, ht⟩ := idx_onto ⟨(i 0).val / 2000, by omega⟩
  have q0 : win5_4.index t (0 : Fin 2) = (i 0).val / 2000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 64 ≤ (i 1).val ∧ (i 1).val < win5_4.index t (1 : Fin 2) * 64 + 64; omega

/-- The output array after the region: the update of the arrays the region was entered with. -/
theorem final (c : Dev nD) : (dat5 V c).arrAt 4 cfg5.N
    = NodeUpdate.updateCol (V c main_v103) (V c main_v75) (V c main_v104) (V c main_v105) :=
  (dat5 V c).arrAt_eq_of_cover 4 _ (fun t _ => flushed_eq V c t) cover

end Cert.KernelIdeal.Region5

end
-- ==== Proof.Region6.lean ====
/-
  Region 6: an affine layer with the clamp at zero on a block of 2000 rows: the block's rows of X (50000 × 64) times the
  whole matrix W (64 × 64) plus the whole offset row B (1 × 64), written to the same 2000 rows of the output.
  What point t flushes is block t of the layer of the arrays, the 25 blocks tile the rows, and the output
  array ends as the layer of the arrays the region was entered with — for any entry contents V.
-/
import proofs.«136079_j24970939859424_1_alg».proof.Proof.Gen.KernelIdeal.Frame
import Idealize.ShloMosaic.Lib.Pipeline.Value
import Idealize.ShloMosaic.Lib.ValueIdx
import Idealize.ShloMosaic.PureOps.Ideal.Laws
import proofs.«136079_j24970939859424_1_alg».proof.Proof.LibPlainDot
import proofs.«136079_j24970939859424_1_alg».proof.Proof.LibAffineRow
import proofs.«136079_j24970939859424_1_alg».proof.Proof.LibNodeUpdate

set_option maxRecDepth 16384

noncomputable section

open scoped BigOperators

namespace Cert.KernelIdeal.Region6

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at entry (p, q) of the block. -/
theorem pay (x0 : Vec Ideal S2000x64 .f32) (x1 : Vec Ideal S64x64 .f32) (x2 : Vec Ideal S1x64 .f32)
    (p : Fin 2000) (q : Fin 64) :
    k6_pay1 x0 x1 x2 (ix2 p q) = max ((∑ c : Fin 64, x0 (ix2 p c) * x1 (ix2 c q)) + x2 (ix2 (0 : Fin 1) q)) NodeUpdate.zero := by
  unfold k6_pay1
  exact NodeUpdate.affine_relu_block_apply dot_S2000x64_S64x64_S2000x64_1_0_0_1_n_n rfl (by decide) none x0 x1 x2 _ _ _ _ p q

/-- One entry of a block against one entry of the layer: the block's row is the array's row, the lane is the lane. -/
theorem point (X : S50000x64.Idx → EReal) (W : S64x64.Idx → EReal) (B : S1x64.Idx → EReal)
    (x0 : Vec Ideal S2000x64 .f32) (x1 : Vec Ideal S64x64 .f32) (x2 : Vec Ideal S1x64 .f32)
    (y : S2000x64.Idx) (i : S50000x64.Idx)
    (h0 : ∀ k : Fin 64, x0 (ix2 (y 0) k) = X (ix2 (i 0) k)) (h1 : ∀ u, x1 u = W u) (h2 : ∀ u, x2 u = B u)
    (hq : (y 1).val = (i 1).val) :
    k6_pay1 x0 x1 x2 y = NodeUpdate.relu (AffineRow.rowAffine X W B) i := by
  obtain ⟨p, q, rfl⟩ : ∃ (p : Fin 2000) (q : Fin 64), y = ix2 p q := ⟨y 0, y 1, eq_ix2 y⟩
  obtain ⟨p', q', rfl⟩ : ∃ (p' : Fin 50000) (q' : Fin 64), i = ix2 p' q' := ⟨i 0, i 1, eq_ix2 i⟩
  obtain rfl : q = q' := Fin.ext hq
  rw [pay]
  exact congrArg (max · NodeUpdate.zero) (congrArg₂ (· + ·) (Finset.sum_congr rfl fun k _ => congrArg₂ (· * ·) (h0 k) (h1 _)) (h2 _))

/-- The printed index maps, decided over the grid: X's block and the output's block move together down the rows,
    W's block and the offset row stay put. -/
theorem idx_facts : ∀ t : Fin cfg6.N, win6_0.index t (0 : Fin 2) = win6_3.index t (0 : Fin 2)
    ∧ win6_0.index t (1 : Fin 2) = 0 ∧ win6_1.index t (0 : Fin 2) = 0 ∧ win6_1.index t (1 : Fin 2) = 0
    ∧ win6_2.index t (0 : Fin 2) = 0 ∧ win6_2.index t (1 : Fin 2) = 0 ∧ win6_3.index t (1 : Fin 2) = 0 :=
  (by decide +kernel : ∀ t : Fin grid6.N, _)

/-- What point t writes back is block t of the layer of the arrays as the region finds them. -/
theorem flushed_eq (c : Dev nD) (t : Fin cfg6.N) :
    (dat6 V c).flushed 3 t = ((cfg6.win 3).blk t).view.read (Elt Ideal) (NodeUpdate.relu (AffineRow.rowAffine (V c main_v106) (V c main_arg8) (V c main_v107))) := by
  show (cfg6.win 3).cut (grid6.coords t) ((dat6 V c).after 3 t) = _
  rw [after6_3]
  unfold out6_3
  rw [View.canon_unit_zero hz]
  simp only [View.ld_unit_zero (S := S2000x64) hz, View.ld_unit_zero (S := S64x64) hz, View.ld_unit_zero (S := S1x64) hz]
  obtain ⟨e0, e1, e2, e3, e4, e5, e6⟩ := idx_facts t
  funext j
  refine point (V c main_v106) (V c main_arg8) (V c main_v107) _ _ _ j (((cfg6.win 3).blk t).view.emb j) (fun k => ?_) (fun u => ?_) (fun u => ?_) ?_
  · show V c main_v106 (((cfg6.win 0).blk t).view.emb (ix2 (j 0) k)) = V c main_v106 (ix2 ((((cfg6.win 3).blk t).view.emb j) 0) k)
    refine congrArg _ ?_
    funext a; apply Fin.ext
    match a with
    | ⟨0, _⟩ => show win6_0.index t (0 : Fin 2) * 2000 + 1 * (j 0).val = win6_3.index t (0 : Fin 2) * 2000 + 1 * (j 0).val; omega
    | ⟨1, _⟩ => show win6_0.index t (1 : Fin 2) * 64 + 1 * k.val = k.val; omega
  · show V c main_arg8 (((cfg6.win 1).blk t).view.emb u) = V c main_arg8 u
    refine congrArg _ ?_
    funext a; apply Fin.ext
    match a with
    | ⟨0, _⟩ => show win6_1.index t (0 : Fin 2) * 64 + 1 * (u 0).val = (u 0).val; omega
    | ⟨1, _⟩ => show win6_1.index t (1 : Fin 2) * 64 + 1 * (u 1).val = (u 1).val; omega
  · show V c main_v107 (((cfg6.win 2).blk t).view.emb u) = V c main_v107 u
    refine congrArg _ ?_
    funext a; apply Fin.ext
    match a with
    | ⟨0, _⟩ => show win6_2.index t (0 : Fin 2) * 1 + 1 * (u 0).val = (u 0).val; omega
    | ⟨1, _⟩ => show win6_2.index t (1 : Fin 2) * 64 + 1 * (u 1).val = (u 1).val; omega
  · show (j 1).val = win6_3.index t (1 : Fin 2) * 64 + 1 * (j 1).val
    omega

/-- An index of the output array is in point t's block iff each coordinate is in the block's range on its axis. -/
theorem mem_blk (t : Fin cfg6.N) (i : S50000x64.Idx) :
    i ∈ ((cfg6.win 3).blk t).view.set ↔ ∀ a : Fin 2, win6_3.index t a * S2000x64.size a ≤ (i a).val ∧ (i a).val < win6_3.index t a * S2000x64.size a + S2000x64.size a := by
  show i ∈ ((View.whole main_v108).slice (win6_3.rect t)).set ↔ _
  rw [View.set_slice_whole, Rect.mem_set_unit]
  exact Iff.rfl

/-- Every block of rows is some point's. -/
theorem idx_onto : ∀ q0 : Fin 25, ∃ t : Fin cfg6.N, win6_3.index t = ![q0.val, 0] :=
  (by decide +kernel : ∀ q0 : Fin 25, ∃ t : Fin grid6.N, win6_3.index t = ![q0.val, 0])

/-- The 25 blocks of 2000 rows tile the 50000 rows: every index is in the block of the point its row selects. -/
theorem cover (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  obtain ⟨t, ht⟩ := idx_onto ⟨(i 0).val / 2000, by omega⟩
  have q0 : win6_3.index t (0 : Fin 2) = (i 0).val / 2000 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 64 ≤ (i 1).val ∧ (i 1).val < win6_3.index t (1 : Fin 2) * 64 + 64; omega

/-- The output array after the region: the layer of the arrays the region was entered with. -/
theorem final (c : Dev nD) : (dat6 V c).arrAt 3 cfg6.N = NodeUpdate.relu (AffineRow.rowAffine (V c main_v106) (V c main_arg8) (V c main_v107)) :=
  (dat6 V c).arrAt_eq_of_cover 3 _ (fun t _ => flushed_eq V c t) cover

end Cert.KernelIdeal.Region6

end
-- ==== Proof.Region7.lean ====
/-
  Region 7: an affine layer on a block of 2000 rows: the block's rows of X (50000 × 64) times the
  whole matrix W (64 × 10) plus the whole offset row B (1 × 10), written to the same 2000 rows of the output.
  What point t flushes is block t of the layer of the arrays, the 25 blocks tile the rows, and the output
  array ends as the layer of the arrays the region was entered with — for any entry contents V.
-/
import proofs.«136079_j24970939859424_1_alg».proof.Proof.Gen.KernelIdeal.Frame
import Idealize.ShloMosaic.Lib.Pipeline.Value
import Idealize.ShloMosaic.Lib.ValueIdx
import Idealize.ShloMosaic.PureOps.Ideal.Laws
import proofs.«136079_j24970939859424_1_alg».proof.Proof.LibPlainDot
import proofs.«136079_j24970939859424_1_alg».proof.Proof.LibAffineRow
import proofs.«136079_j24970939859424_1_alg».proof.Proof.LibNodeUpdate

set_option maxRecDepth 16384

noncomputable section

open scoped BigOperators

namespace Cert.KernelIdeal.Region7

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at entry (p, q) of the block. -/
theorem pay (x0 : Vec Ideal S2000x64 .f32) (x1 : Vec Ideal S64x10 .f32) (x2 : Vec Ideal S1x10 .f32)
    (p : Fin 2000) (q : Fin 10) :
    k7_pay1 x0 x1 x2 (ix2 p q) = (∑ c : Fin 64, x0 (ix2 p c) * x1 (ix2 c q)) + x2 (ix2 (0 : Fin 1) q) := by
  unfold k7_pay1
  exact NodeUpdate.affine_block_apply dot_S2000x64_S64x10_S2000x10_1_0_0_1_n_n rfl (by decide) none x0 x1 x2 _ _ _ _ p q

/-- One entry of a block against one entry of the layer: the block's row is the array's row, the lane is the lane. -/
theorem point (X : S50000x64.Idx → EReal) (W : S64x10.Idx → EReal) (B : S1x10.Idx → EReal)
    (x0 : Vec Ideal S2000x64 .f32) (x1 : Vec Ideal S64x10 .f32) (x2 : Vec Ideal S1x10 .f32)
    (y : S2000x10.Idx) (i : S50000x10.Idx)
    (h0 : ∀ k : Fin 64, x0 (ix2 (y 0) k) = X (ix2 (i 0) k)) (h1 : ∀ u, x1 u = W u) (h2 : ∀ u, x2 u = B u)
    (hq : (y 1).val = (i 1).val) :
    k7_pay1 x0 x1 x2 y = AffineRow.rowAffine X W B i := by
  obtain ⟨p, q, rfl⟩ : ∃ (p : Fin 2000) (q : Fin 10), y = ix2 p q := ⟨y 0, y 1, eq_ix2 y⟩
  obtain ⟨p', q', rfl⟩ : ∃ (p' : Fin 50000) (q' : Fin 10), i = ix2 p' q' := ⟨i 0, i 1, eq_ix2 i⟩
  obtain rfl : q = q' := Fin.ext hq
  rw [pay]
  exact (congrArg₂ (· + ·) (Finset.sum_congr rfl fun k _ => congrArg₂ (· * ·) (h0 k) (h1 _)) (h2 _))

/-- The printed index maps, decided over the grid: X's block and the output's block move together down the rows,
    W's block and the offset row stay put. -/
theorem idx_facts : ∀ t : Fin cfg7.N, win7_0.index t (0 : Fin 2) = win7_3.index t (0 : Fin 2)
    ∧ win7_0.index t (1 : Fin 2) = 0 ∧ win7_1.index t (0 : Fin 2) = 0 ∧ win7_1.index t (1 : Fin 2) = 0
    ∧ win7_2.index t (0 : Fin 2) = 0 ∧ win7_2.index t (1 : Fin 2) = 0 ∧ win7_3.index t (1 : Fin 2) = 0 :=
  (by decide +kernel : ∀ t : Fin grid7.N, _)

/-- What point t writes back is block t of the layer of the arrays as the region finds them. -/
theorem flushed_eq (c : Dev nD) (t : Fin cfg7.N) :
    (dat7 V c).flushed 3 t = ((cfg7.win 3).blk t).view.read (Elt Ideal) (AffineRow.rowAffine (V c main_v108) (V c main_arg10) (V c main_v109)) := by
  show (cfg7.win 3).cut (grid7.coords t) ((dat7 V c).after 3 t) = _
  rw [after7_3]
  unfold out7_3
  rw [View.canon_unit_zero hz]
  simp only [View.ld_unit_zero (S := S2000x64) hz, View.ld_unit_zero (S := S64x10) hz, View.ld_unit_zero (S := S1x10) hz]
  obtain ⟨e0, e1, e2, e3, e4, e5, e6⟩ := idx_facts t
  funext j
  refine point (V c main_v108) (V c main_arg10) (V c main_v109) _ _ _ j (((cfg7.win 3).blk t).view.emb j) (fun k => ?_) (fun u => ?_) (fun u => ?_) ?_
  · show V c main_v108 (((cfg7.win 0).blk t).view.emb (ix2 (j 0) k)) = V c main_v108 (ix2 ((((cfg7.win 3).blk t).view.emb j) 0) k)
    refine congrArg _ ?_
    funext a; apply Fin.ext
    match a with
    | ⟨0, _⟩ => show win7_0.index t (0 : Fin 2) * 2000 + 1 * (j 0).val = win7_3.index t (0 : Fin 2) * 2000 + 1 * (j 0).val; omega
    | ⟨1, _⟩ => show win7_0.index t (1 : Fin 2) * 64 + 1 * k.val = k.val; omega
  · show V c main_arg10 (((cfg7.win 1).blk t).view.emb u) = V c main_arg10 u
    refine congrArg _ ?_
    funext a; apply Fin.ext
    match a with
    | ⟨0, _⟩ => show win7_1.index t (0 : Fin 2) * 64 + 1 * (u 0).val = (u 0).val; omega
    | ⟨1, _⟩ => show win7_1.index t (1 : Fin 2) * 10 + 1 * (u 1).val = (u 1).val; omega
  · show V c main_v109 (((cfg7.win 2).blk t).view.emb u) = V c main_v109 u
    refine congrArg _ ?_
    funext a; apply Fin.ext
    match a with
    | ⟨0, _⟩ => show win7_2.index t (0 : Fin 2) * 1 + 1 * (u 0).val = (u 0).val; omega
    | ⟨1, _⟩ => show win7_2.index t (1 : Fin 2) * 10 + 1 * (u 1).val = (u 1).val; omega
  · show (j 1).val = win7_3.index t (1 : Fin 2) * 10 + 1 * (j 1).val
    omega

/-- An index of the output array is in point t's block iff each coordinate is in the block's range on its axis. -/
theorem mem_blk (t : Fin cfg7.N) (i : S50000x10.Idx) :
    i ∈ ((cfg7.win 3).blk t).view.set ↔ ∀ a : Fin 2, win7_3.index t a * S2000x10.size a ≤ (i a).val ∧ (i a).val < win7_3.index t a * S2000x10.size a + S2000x10.size a := by
  show i ∈ ((View.whole main_v110).slice (win7_3.rect t)).set ↔ _
  rw [View.set_slice_whole, Rect.mem_set_unit]
  exact Iff.rfl

/-- Every block of rows is some point's. -/
theorem idx_onto : ∀ q0 : Fin 25, ∃ t : Fin cfg7.N, win7_3.index t = ![q0.val, 0] :=
  (by decide +kernel : ∀ q0 : Fin 25, ∃ t : Fin grid7.N, win7_3.index t = ![q0.val, 0])

/-- The 25 blocks of 2000 rows tile the 50000 rows: every index is in the block of the point its row selects. -/
theorem cover (i : S50000x10.Idx) :
    ∃ t : Fin cfg7.N, (cfg7.win 3).flush t = true ∧ i ∈ ((cfg7.win 3).blk t).view.set := by
  have hi0 : (i 0).val < 50000 := (i 0).isLt
  have hi1 : (i 1).val < 10 := (i 1).isLt
  obtain ⟨t, ht⟩ := idx_onto ⟨(i 0).val / 2000, by omega⟩
  have q0 : win7_3.index t (0 : Fin 2) = (i 0).val / 2000 := congrFun ht 0
  have q1 : win7_3.index t (1 : Fin 2) = 0 := congrFun ht 1
  refine ⟨t, flush7_3 t, ?_⟩
  rw [mem_blk]
  intro a
  match a with
  | ⟨0, _⟩ => show win7_3.index t (0 : Fin 2) * 2000 ≤ (i 0).val ∧ (i 0).val < win7_3.index t (0 : Fin 2) * 2000 + 2000; omega
  | ⟨1, _⟩ => show win7_3.index t (1 : Fin 2) * 10 ≤ (i 1).val ∧ (i 1).val < win7_3.index t (1 : Fin 2) * 10 + 10; omega

/-- The output array after the region: the layer of the arrays the region was entered with. -/
theorem final (c : Dev nD) : (dat7 V c).arrAt 3 cfg7.N = AffineRow.rowAffine (V c main_v108) (V c main_arg10) (V c main_v109) :=
  (dat7 V c).arrAt_eq_of_cover 3 _ (fun t _ => flushed_eq V c t) cover

end Cert.KernelIdeal.Region7

end
-- ==== Proof.GcnNet.lean ====
/-
  The three-layer graph convolution network as one function of its inputs, at the ideal values.

  The graph is given by an edge list idx (2 × E words: row 0 the sources, row 1 the targets). With

      deg(k)  = 1 + the number of edges whose target is k,        dis = deg^(-1/2),

  one layer sends node features X (V × K) to

      H = X · W,
      agg(k, ·) = the sum over the edges e landing on k of H(src e, ·) · (dis(src e) · dis(tgt e)),
      out(k, ·) = max ((agg(k, ·) + (dis(k) · dis(k)) · H(k, ·)) + b) 0,

  and the head is relu (X · Wf1 + bf1) · Wf2 + bf2. The edge part — the reads H[src], dis[src], dis[tgt] with
  jnp's index convention (a negative word has V added), and the sum over the edges landing on a node, a
  scatter-add into zeros — is written here with the host operations themselves, over dimension records and
  shape facts taken as parameters, so that two programs that spell the edge part with the same host operations
  meet in this one term and nothing about a gather or a scatter has to be opened.
-/
import Idealize.ShloMosaic.PureOps.Ideal.Laws
import Idealize.ShloMosaic.Lib.Pipeline.Value
import Idealize.ShloMosaic.Lib.ValueIdx
import proofs.«136079_j24970939859424_1_alg».proof.Proof.LibProduct
import proofs.«136079_j24970939859424_1_alg».proof.Proof.LibLinear
import proofs.«136079_j24970939859424_1_alg».proof.Proof.LibNodeUpdate

noncomputable section

namespace Cert.Gcn

open Idealize.ShloMosaic Idealize.ShloMosaic.ValueIdx

/-- The edge list, one edge word per edge, per edge and lane, the node vector, the node features. -/
abbrev s2E : Shape := ⟨2, ![2, 800000]⟩
abbrev s1E : Shape := ⟨2, ![1, 800000]⟩
abbrev sE : Shape := ⟨1, ![800000]⟩
abbrev sE1 : Shape := ⟨2, ![800000, 1]⟩
abbrev sEF : Shape := ⟨2, ![800000, 64]⟩
abbrev sV : Shape := ⟨1, ![50000]⟩
abbrev sVF : Shape := ⟨2, ![50000, 64]⟩
abbrev s0 : Shape := ⟨0, ![]⟩

/-- The dimension records and shape facts the host's edge operations take. -/
structure HostFacts where
  sl0 : s2E.Slices ![0, 0] s1E
  sl1 : s2E.Slices ![1, 0] s1E
  sc : s1E.ShapeCasts sE
  b0E : s0.BroadcastsInDim sE (![] : Fin 0 → Fin sE.rank)
  b0V : s0.BroadcastsInDim sV (![] : Fin 0 → Fin sV.rank)
  bE1 : sE.BroadcastsInDim sE1 (![0] : Fin 1 → Fin sE1.rank)
  bEF : sE1.BroadcastsInDim sEF (![0, 1] : Fin 2 → Fin sEF.rank)
  b0VF : s0.BroadcastsInDim sVF (![] : Fin 0 → Fin sVF.rank)
  sdV : ScatterDims sV sE1 sE
  gdV : GatherDims sV sE1 sE
  gdVF : GatherDims sVF sE1 sEF
  sdVF : ScatterDims sVF sE1 sEF

variable (hf : HostFacts)

/-- The sources: row 0 of the edge list. -/
def srcOf (idx : (⟨s2E, .i32⟩ : BufTy).Contents (Elt Ideal)) : (⟨sE, .i32⟩ : BufTy).Contents (Elt Ideal) :=
  shapeCast sE (extractStridedSlice s1E ![0, 0] idx hf.sl0) hf.sc

/-- The targets: row 1 of the edge list. -/
def dstOf (idx : (⟨s2E, .i32⟩ : BufTy).Contents (Elt Ideal)) : (⟨sE, .i32⟩ : BufTy).Contents (Elt Ideal) :=
  shapeCast sE (extractStridedSlice s1E ![1, 0] idx hf.sl1) hf.sc

/-- jnp's index convention: a negative word has the number of nodes added. -/
def wrap (v : (⟨sE, .i32⟩ : BufTy).Contents (Elt Ideal)) : (⟨sE, .i32⟩ : BufTy).Contents (Elt Ideal) :=
  select (cmpi .slt v (broadcastInDim sE ![] hf.b0E (constantI s0 32 0#32)))
    (addi v (broadcastInDim sE ![] hf.b0E (constantI s0 32 50000#32))) v

/-- deg^(-1/2): one plus the count of the edges landing on each node, under the reciprocal square root. -/
def disOf (dst : (⟨sE, .i32⟩ : BufTy).Contents (Elt Ideal)) : FVec Ideal sV .f32 :=
  Host.rsqrt
    (addf
      (Host.scatterAdd hf.sdV (broadcastInDim sV ![] hf.b0V (constant (F := Ideal) s0 .f32 0x00000000#32))
        (broadcastInDim sE1 ![0] hf.bE1 dst) (broadcastInDim sE ![] hf.b0E (constant (F := Ideal) s0 .f32 0x3F800000#32)))
      (broadcastInDim sV ![] hf.b0V (constant (F := Ideal) s0 .f32 0x3F800000#32)))

/-- The messages summed at their targets. -/
def aggOf (dis : FVec Ideal sV .f32) (src dst : (⟨sE, .i32⟩ : BufTy).Contents (Elt Ideal))
    (H : FVec Ideal sVF .f32) : FVec Ideal sVF .f32 :=
  Host.scatterAdd hf.sdVF (broadcastInDim sVF ![] hf.b0VF (constant (F := Ideal) s0 .f32 0x00000000#32))
    (broadcastInDim sE1 ![0] hf.bE1 dst)
    (mulf (Host.gather hf.gdVF H (broadcastInDim sE1 ![0] hf.bE1 (wrap hf src)))
      (broadcastInDim sEF ![0, 1] hf.bEF
        (broadcastInDim sE1 ![0] hf.bE1
          (mulf (Host.gather hf.gdV dis (broadcastInDim sE1 ![0] hf.bE1 (wrap hf src)))
            (Host.gather hf.gdV dis (broadcastInDim sE1 ![0] hf.bE1 (wrap hf dst)))))))

/-- One layer from the projected features H = X · W. -/
def layerOf (dis : FVec Ideal sV .f32) (src dst : (⟨sE, .i32⟩ : BufTy).Contents (Elt Ideal))
    (H : FVec Ideal sVF .f32) (b : FVec Ideal ⟨1, ![64]⟩ .f32) : FVec Ideal sVF .f32 :=
  NodeUpdate.update (aggOf hf dis src dst H) H dis b

/-- The network. -/
def net (x : FVec Ideal ⟨2, ![50000, 128]⟩ .f32) (idx : (⟨s2E, .i32⟩ : BufTy).Contents (Elt Ideal))
    (W1 : FVec Ideal ⟨2, ![128, 64]⟩ .f32) (b1 : FVec Ideal ⟨1, ![64]⟩ .f32)
    (W2 : FVec Ideal ⟨2, ![64, 64]⟩ .f32) (b2 : FVec Ideal ⟨1, ![64]⟩ .f32)
    (W3 : FVec Ideal ⟨2, ![64, 64]⟩ .f32) (b3 : FVec Ideal ⟨1, ![64]⟩ .f32)
    (Wf1 : FVec Ideal ⟨2, ![64, 64]⟩ .f32) (bf1 : FVec Ideal ⟨1, ![64]⟩ .f32)
    (Wf2 : FVec Ideal ⟨2, ![64, 10]⟩ .f32) (bf2 : FVec Ideal ⟨1, ![10]⟩ .f32) : FVec Ideal ⟨2, ![50000, 10]⟩ .f32 :=
  Linear.dense
    (NodeUpdate.relu
      (Linear.dense
        (layerOf hf (disOf hf (dstOf hf idx)) (srcOf hf idx) (dstOf hf idx)
          (Product.prod
            (layerOf hf (disOf hf (dstOf hf idx)) (srcOf hf idx) (dstOf hf idx)
              (Product.prod
                (layerOf hf (disOf hf (dstOf hf idx)) (srcOf hf idx) (dstOf hf idx) (Product.prod x W1) b1)
                W2) b2)
            W3) b3)
        Wf1 bf1))
    Wf2 bf2

end Cert.Gcn

end
-- ==== Proof.KValue.lean ====
/-
  The kernel program's result, read off its run segment by segment.

  The program is fourteen segments: a stretch of host operations (the edge list's two rows, the degree
  normaliser), then per layer a projection region, a host stretch (the reads at the sources and targets, the
  sum over the landing edges, the column view of the normaliser and the row view of the bias) and a node-update
  region, then the two affine regions of the head, each after a one-operation stretch that lays its bias out as
  a row. The buffer contents at each boundary are a fold through these segments. Here each buffer a later
  segment reads is followed through the fold: a host stretch leaves a buffer it does not write as it was and
  gives each result as its operations' term; a region leaves every buffer but its output as it was and ends its
  output as the whole-array function of the arrays it was entered with (the Region modules). The values met on
  the way are named (src, dst, dis, h1, x1, …, hid, out), each from the ones before it, and the last of them,
  the result buffer's final contents, is the network function of the argument arrays.
-/
import proofs.«136079_j24970939859424_1_alg».proof.Proof.Gen.KernelIdeal.Frame
import proofs.«136079_j24970939859424_1_alg».proof.Proof.Region0
import proofs.«136079_j24970939859424_1_alg».proof.Proof.Region1
import proofs.«136079_j24970939859424_1_alg».proof.Proof.Region2
import proofs.«136079_j24970939859424_1_alg».proof.Proof.Region3
import proofs.«136079_j24970939859424_1_alg».proof.Proof.Region4
import proofs.«136079_j24970939859424_1_alg».proof.Proof.Region5
import proofs.«136079_j24970939859424_1_alg».proof.Proof.Region6
import proofs.«136079_j24970939859424_1_alg».proof.Proof.Region7
import proofs.«136079_j24970939859424_1_alg».proof.Proof.GcnNet
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

/-- The kernel program's dimension records and shape facts for the edge operations. -/
def hostFacts : Gcn.HostFacts where
  sl0 := Facts₀.slices_S2x800000_S1x800000_0_0
  sl1 := Facts₀.slices_S2x800000_S1x800000_1_0
  sc := Facts₀.shapeCasts_S1x800000_S800000
  b0E := Facts₀.bcast_S_S800000
  b0V := Facts₀.bcast_S_S50000
  bE1 := Facts₀.bcast_S800000_S800000x1_0
  bEF := Facts₀.bcast_S800000x1_S800000x64_0_1
  b0VF := Facts₀.bcast_S_S50000x64
  sdV := scatter_S50000_S800000x1_S800000_n_0_0_1
  gdV := gather_S50000_S800000x1_S800000_n_0_n_n_0_1_1
  gdVF := gather_S50000x64_S800000x1_S800000x64_1_0_n_n_0_1_164
  sdVF := scatter_S50000x64_S800000x1_S800000x64_1_0_0_1

variable (m : (ℓ : Loc nD τ sig) → Buf (Elt Ideal) ℓ)

/-! ## The values met on the way, each from the ones before it -/

/-- The sources and the targets of the edges, and the degree normaliser. -/
def src (c : Dev nD) := Gcn.srcOf hostFacts (m ((c.tc : Thread nD τ).loc main_arg1))
def dst (c : Dev nD) := Gcn.dstOf hostFacts (m ((c.tc : Thread nD τ).loc main_arg1))
def dis (c : Dev nD) := Gcn.disOf hostFacts (dst m c)
/-- Layer 1: the projection and the node update. -/
def h1 (c : Dev nD) : FVec Ideal Gcn.sVF .f32 := Product.prod (m ((c.tc : Thread nD τ).loc main_arg0)) (m ((c.tc : Thread nD τ).loc main_arg2))
def x1 (c : Dev nD) : FVec Ideal Gcn.sVF .f32 := Gcn.layerOf hostFacts (dis m c) (src m c) (dst m c) (h1 m c) (m ((c.tc : Thread nD τ).loc main_arg3))
/-- Layer 2. -/
def h2 (c : Dev nD) : FVec Ideal Gcn.sVF .f32 := Product.prod (x1 m c) (m ((c.tc : Thread nD τ).loc main_arg4))
def x2 (c : Dev nD) : FVec Ideal Gcn.sVF .f32 := Gcn.layerOf hostFacts (dis m c) (src m c) (dst m c) (h2 m c) (m ((c.tc : Thread nD τ).loc main_arg5))
/-- Layer 3. -/
def h3 (c : Dev nD) : FVec Ideal Gcn.sVF .f32 := Product.prod (x2 m c) (m ((c.tc : Thread nD τ).loc main_arg6))
def x3 (c : Dev nD) : FVec Ideal Gcn.sVF .f32 := Gcn.layerOf hostFacts (dis m c) (src m c) (dst m c) (h3 m c) (m ((c.tc : Thread nD τ).loc main_arg7))
/-- The head: the hidden layer and the output. -/
def hid (c : Dev nD) : FVec Ideal Gcn.sVF .f32 := NodeUpdate.relu (Linear.dense (x3 m c) (m ((c.tc : Thread nD τ).loc main_arg8)) (m ((c.tc : Thread nD τ).loc main_arg9)))
def out (c : Dev nD) : FVec Ideal ⟨2, ![50000, 10]⟩ .f32 := Linear.dense (hid m c) (m ((c.tc : Thread nD τ).loc main_arg10)) (m ((c.tc : Thread nD τ).loc main_arg11))

/-- The last value is the network function of the argument arrays. -/
theorem out_eq (c : Dev nD) :
    out m c = Gcn.net hostFacts (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

variable (ρ : Dev nD → PrngReg)

/-! ## The argument arrays, as far along the fold as a segment reads them -/

theorem W1_arg0 (c : Dev nD) : W1 m ρ c (Proc.devRef .tc main_arg0) = (m ((c.tc : Thread nD τ).loc main_arg0)) := by
  show StableHlo.after hostOps0 (W0 m ρ c) (Proc.devRef .tc main_arg0) = _
  after_results_simp
  try rfl
theorem W1_arg2 (c : Dev nD) : W1 m ρ c (Proc.devRef .tc main_arg2) = (m ((c.tc : Thread nD τ).loc main_arg2)) := by
  show StableHlo.after hostOps0 (W0 m ρ c) (Proc.devRef .tc main_arg2) = _
  after_results_simp
  try rfl
theorem W1_arg3 (c : Dev nD) : W1 m ρ c (Proc.devRef .tc main_arg3) = (m ((c.tc : Thread nD τ).loc main_arg3)) := by
  show StableHlo.after hostOps0 (W0 m ρ c) (Proc.devRef .tc main_arg3) = _
  after_results_simp
  try rfl
theorem W2_arg3 (c : Dev nD) : W2 m ρ c (Proc.devRef .tc main_arg3) = (m ((c.tc : Thread nD τ).loc main_arg3)) :=
  (W2_of_ne m ρ c main_arg3 (by decide)).trans (W1_arg3 m ρ c)
theorem W1_arg4 (c : Dev nD) : W1 m ρ c (Proc.devRef .tc main_arg4) = (m ((c.tc : Thread nD τ).loc main_arg4)) := by
  show StableHlo.after hostOps0 (W0 m ρ c) (Proc.devRef .tc main_arg4) = _
  after_results_simp
  try rfl
theorem W2_arg4 (c : Dev nD) : W2 m ρ c (Proc.devRef .tc main_arg4) = (m ((c.tc : Thread nD τ).loc main_arg4)) :=
  (W2_of_ne m ρ c main_arg4 (by decide)).trans (W1_arg4 m ρ c)
theorem W3_arg4 (c : Dev nD) : W3 m ρ c (Proc.devRef .tc main_arg4) = (m ((c.tc : Thread nD τ).loc main_arg4)) :=
  (show StableHlo.after hostOps1 (W2 m ρ c) (Proc.devRef .tc main_arg4) = W2 m ρ c (Proc.devRef .tc main_arg4) by after_results_simp).trans
    (W2_arg4 m ρ c)
theorem W4_arg4 (c : Dev nD) : W4 m ρ c (Proc.devRef .tc main_arg4) = (m ((c.tc : Thread nD τ).loc main_arg4)) :=
  (W4_of_ne m ρ c main_arg4 (by decide)).trans (W3_arg4 m ρ c)
theorem W1_arg5 (c : Dev nD) : W1 m ρ c (Proc.devRef .tc main_arg5) = (m ((c.tc : Thread nD τ).loc main_arg5)) := by
  show StableHlo.after hostOps0 (W0 m ρ c) (Proc.devRef .tc main_arg5) = _
  after_results_simp
  try rfl
theorem W2_arg5 (c : Dev nD) : W2 m ρ c (Proc.devRef .tc main_arg5) = (m ((c.tc : Thread nD τ).loc main_arg5)) :=
  (W2_of_ne m ρ c main_arg5 (by decide)).trans (W1_arg5 m ρ c)
theorem W3_arg5 (c : Dev nD) : W3 m ρ c (Proc.devRef .tc main_arg5) = (m ((c.tc : Thread nD τ).loc main_arg5)) :=
  (show StableHlo.after hostOps1 (W2 m ρ c) (Proc.devRef .tc main_arg5) = W2 m ρ c (Proc.devRef .tc main_arg5) by after_results_simp).trans
    (W2_arg5 m ρ c)
theorem W4_arg5 (c : Dev nD) : W4 m ρ c (Proc.devRef .tc main_arg5) = (m ((c.tc : Thread nD τ).loc main_arg5)) :=
  (W4_of_ne m ρ c main_arg5 (by decide)).trans (W3_arg5 m ρ c)
theorem W5_arg5 (c : Dev nD) : W5 m ρ c (Proc.devRef .tc main_arg5) = (m ((c.tc : Thread nD τ).loc main_arg5)) :=
  (W5_of_ne m ρ c main_arg5 (by decide)).trans (W4_arg5 m ρ c)
theorem W1_arg6 (c : Dev nD) : W1 m ρ c (Proc.devRef .tc main_arg6) = (m ((c.tc : Thread nD τ).loc main_arg6)) := by
  show StableHlo.after hostOps0 (W0 m ρ c) (Proc.devRef .tc main_arg6) = _
  after_results_simp
  try rfl
theorem W2_arg6 (c : Dev nD) : W2 m ρ c (Proc.devRef .tc main_arg6) = (m ((c.tc : Thread nD τ).loc main_arg6)) :=
  (W2_of_ne m ρ c main_arg6 (by decide)).trans (W1_arg6 m ρ c)
theorem W3_arg6 (c : Dev nD) : W3 m ρ c (Proc.devRef .tc main_arg6) = (m ((c.tc : Thread nD τ).loc main_arg6)) :=
  (show StableHlo.after hostOps1 (W2 m ρ c) (Proc.devRef .tc main_arg6) = W2 m ρ c (Proc.devRef .tc main_arg6) by after_results_simp).trans
    (W2_arg6 m ρ c)
theorem W4_arg6 (c : Dev nD) : W4 m ρ c (Proc.devRef .tc main_arg6) = (m ((c.tc : Thread nD τ).loc main_arg6)) :=
  (W4_of_ne m ρ c main_arg6 (by decide)).trans (W3_arg6 m ρ c)
theorem W5_arg6 (c : Dev nD) : W5 m ρ c (Proc.devRef .tc main_arg6) = (m ((c.tc : Thread nD τ).loc main_arg6)) :=
  (W5_of_ne m ρ c main_arg6 (by decide)).trans (W4_arg6 m ρ c)
theorem W6_arg6 (c : Dev nD) : W6 m ρ c (Proc.devRef .tc main_arg6) = (m ((c.tc : Thread nD τ).loc main_arg6)) :=
  (show StableHlo.after hostOps3 (W5 m ρ c) (Proc.devRef .tc main_arg6) = W5 m ρ c (Proc.devRef .tc main_arg6) by after_results_simp).trans
    (W5_arg6 m ρ c)
theorem W7_arg6 (c : Dev nD) : W7 m ρ c (Proc.devRef .tc main_arg6) = (m ((c.tc : Thread nD τ).loc main_arg6)) :=
  (W7_of_ne m ρ c main_arg6 (by decide)).trans (W6_arg6 m ρ c)
theorem W1_arg7 (c : Dev nD) : W1 m ρ c (Proc.devRef .tc main_arg7) = (m ((c.tc : Thread nD τ).loc main_arg7)) := by
  show StableHlo.after hostOps0 (W0 m ρ c) (Proc.devRef .tc main_arg7) = _
  after_results_simp
  try rfl
theorem W2_arg7 (c : Dev nD) : W2 m ρ c (Proc.devRef .tc main_arg7) = (m ((c.tc : Thread nD τ).loc main_arg7)) :=
  (W2_of_ne m ρ c main_arg7 (by decide)).trans (W1_arg7 m ρ c)
theorem W3_arg7 (c : Dev nD) : W3 m ρ c (Proc.devRef .tc main_arg7) = (m ((c.tc : Thread nD τ).loc main_arg7)) :=
  (show StableHlo.after hostOps1 (W2 m ρ c) (Proc.devRef .tc main_arg7) = W2 m ρ c (Proc.devRef .tc main_arg7) by after_results_simp).trans
    (W2_arg7 m ρ c)
theorem W4_arg7 (c : Dev nD) : W4 m ρ c (Proc.devRef .tc main_arg7) = (m ((c.tc : Thread nD τ).loc main_arg7)) :=
  (W4_of_ne m ρ c main_arg7 (by decide)).trans (W3_arg7 m ρ c)
theorem W5_arg7 (c : Dev nD) : W5 m ρ c (Proc.devRef .tc main_arg7) = (m ((c.tc : Thread nD τ).loc main_arg7)) :=
  (W5_of_ne m ρ c main_arg7 (by decide)).trans (W4_arg7 m ρ c)
theorem W6_arg7 (c : Dev nD) : W6 m ρ c (Proc.devRef .tc main_arg7) = (m ((c.tc : Thread nD τ).loc main_arg7)) :=
  (show StableHlo.after hostOps3 (W5 m ρ c) (Proc.devRef .tc main_arg7) = W5 m ρ c (Proc.devRef .tc main_arg7) by after_results_simp).trans
    (W5_arg7 m ρ c)
theorem W7_arg7 (c : Dev nD) : W7 m ρ c (Proc.devRef .tc main_arg7) = (m ((c.tc : Thread nD τ).loc main_arg7)) :=
  (W7_of_ne m ρ c main_arg7 (by decide)).trans (W6_arg7 m ρ c)
theorem W8_arg7 (c : Dev nD) : W8 m ρ c (Proc.devRef .tc main_arg7) = (m ((c.tc : Thread nD τ).loc main_arg7)) :=
  (W8_of_ne m ρ c main_arg7 (by decide)).trans (W7_arg7 m ρ c)
theorem W1_arg8 (c : Dev nD) : W1 m ρ c (Proc.devRef .tc main_arg8) = (m ((c.tc : Thread nD τ).loc main_arg8)) := by
  show StableHlo.after hostOps0 (W0 m ρ c) (Proc.devRef .tc main_arg8) = _
  after_results_simp
  try rfl
theorem W2_arg8 (c : Dev nD) : W2 m ρ c (Proc.devRef .tc main_arg8) = (m ((c.tc : Thread nD τ).loc main_arg8)) :=
  (W2_of_ne m ρ c main_arg8 (by decide)).trans (W1_arg8 m ρ c)
theorem W3_arg8 (c : Dev nD) : W3 m ρ c (Proc.devRef .tc main_arg8) = (m ((c.tc : Thread nD τ).loc main_arg8)) :=
  (show StableHlo.after hostOps1 (W2 m ρ c) (Proc.devRef .tc main_arg8) = W2 m ρ c (Proc.devRef .tc main_arg8) by after_results_simp).trans
    (W2_arg8 m ρ c)
theorem W4_arg8 (c : Dev nD) : W4 m ρ c (Proc.devRef .tc main_arg8) = (m ((c.tc : Thread nD τ).loc main_arg8)) :=
  (W4_of_ne m ρ c main_arg8 (by decide)).trans (W3_arg8 m ρ c)
theorem W5_arg8 (c : Dev nD) : W5 m ρ c (Proc.devRef .tc main_arg8) = (m ((c.tc : Thread nD τ).loc main_arg8)) :=
  (W5_of_ne m ρ c main_arg8 (by decide)).trans (W4_arg8 m ρ c)
theorem W6_arg8 (c : Dev nD) : W6 m ρ c (Proc.devRef .tc main_arg8) = (m ((c.tc : Thread nD τ).loc main_arg8)) :=
  (show StableHlo.after hostOps3 (W5 m ρ c) (Proc.devRef .tc main_arg8) = W5 m ρ c (Proc.devRef .tc main_arg8) by after_results_simp).trans
    (W5_arg8 m ρ c)
theorem W7_arg8 (c : Dev nD) : W7 m ρ c (Proc.devRef .tc main_arg8) = (m ((c.tc : Thread nD τ).loc main_arg8)) :=
  (W7_of_ne m ρ c main_arg8 (by decide)).trans (W6_arg8 m ρ c)
theorem W8_arg8 (c : Dev nD) : W8 m ρ c (Proc.devRef .tc main_arg8) = (m ((c.tc : Thread nD τ).loc main_arg8)) :=
  (W8_of_ne m ρ c main_arg8 (by decide)).trans (W7_arg8 m ρ c)
theorem W9_arg8 (c : Dev nD) : W9 m ρ c (Proc.devRef .tc main_arg8) = (m ((c.tc : Thread nD τ).loc main_arg8)) :=
  (show StableHlo.after hostOps5 (W8 m ρ c) (Proc.devRef .tc main_arg8) = W8 m ρ c (Proc.devRef .tc main_arg8) by after_results_simp).trans
    (W8_arg8 m ρ c)
theorem W10_arg8 (c : Dev nD) : W10 m ρ c (Proc.devRef .tc main_arg8) = (m ((c.tc : Thread nD τ).loc main_arg8)) :=
  (W10_of_ne m ρ c main_arg8 (by decide)).trans (W9_arg8 m ρ c)
theorem W11_arg8 (c : Dev nD) : W11 m ρ c (Proc.devRef .tc main_arg8) = (m ((c.tc : Thread nD τ).loc main_arg8)) :=
  (show StableHlo.after hostOps6 (W10 m ρ c) (Proc.devRef .tc main_arg8) = W10 m ρ c (Proc.devRef .tc main_arg8) by after_results_simp).trans
    (W10_arg8 m ρ c)
theorem W1_arg9 (c : Dev nD) : W1 m ρ c (Proc.devRef .tc main_arg9) = (m ((c.tc : Thread nD τ).loc main_arg9)) := by
  show StableHlo.after hostOps0 (W0 m ρ c) (Proc.devRef .tc main_arg9) = _
  after_results_simp
  try rfl
theorem W2_arg9 (c : Dev nD) : W2 m ρ c (Proc.devRef .tc main_arg9) = (m ((c.tc : Thread nD τ).loc main_arg9)) :=
  (W2_of_ne m ρ c main_arg9 (by decide)).trans (W1_arg9 m ρ c)
theorem W3_arg9 (c : Dev nD) : W3 m ρ c (Proc.devRef .tc main_arg9) = (m ((c.tc : Thread nD τ).loc main_arg9)) :=
  (show StableHlo.after hostOps1 (W2 m ρ c) (Proc.devRef .tc main_arg9) = W2 m ρ c (Proc.devRef .tc main_arg9) by after_results_simp).trans
    (W2_arg9 m ρ c)
theorem W4_arg9 (c : Dev nD) : W4 m ρ c (Proc.devRef .tc main_arg9) = (m ((c.tc : Thread nD τ).loc main_arg9)) :=
  (W4_of_ne m ρ c main_arg9 (by decide)).trans (W3_arg9 m ρ c)
theorem W5_arg9 (c : Dev nD) : W5 m ρ c (Proc.devRef .tc main_arg9) = (m ((c.tc : Thread nD τ).loc main_arg9)) :=
  (W5_of_ne m ρ c main_arg9 (by decide)).trans (W4_arg9 m ρ c)
theorem W6_arg9 (c : Dev nD) : W6 m ρ c (Proc.devRef .tc main_arg9) = (m ((c.tc : Thread nD τ).loc main_arg9)) :=
  (show StableHlo.after hostOps3 (W5 m ρ c) (Proc.devRef .tc main_arg9) = W5 m ρ c (Proc.devRef .tc main_arg9) by after_results_simp).trans
    (W5_arg9 m ρ c)
theorem W7_arg9 (c : Dev nD) : W7 m ρ c (Proc.devRef .tc main_arg9) = (m ((c.tc : Thread nD τ).loc main_arg9)) :=
  (W7_of_ne m ρ c main_arg9 (by decide)).trans (W6_arg9 m ρ c)
theorem W8_arg9 (c : Dev nD) : W8 m ρ c (Proc.devRef .tc main_arg9) = (m ((c.tc : Thread nD τ).loc main_arg9)) :=
  (W8_of_ne m ρ c main_arg9 (by decide)).trans (W7_arg9 m ρ c)
theorem W9_arg9 (c : Dev nD) : W9 m ρ c (Proc.devRef .tc main_arg9) = (m ((c.tc : Thread nD τ).loc main_arg9)) :=
  (show StableHlo.after hostOps5 (W8 m ρ c) (Proc.devRef .tc main_arg9) = W8 m ρ c (Proc.devRef .tc main_arg9) by after_results_simp).trans
    (W8_arg9 m ρ c)
theorem W10_arg9 (c : Dev nD) : W10 m ρ c (Proc.devRef .tc main_arg9) = (m ((c.tc : Thread nD τ).loc main_arg9)) :=
  (W10_of_ne m ρ c main_arg9 (by decide)).trans (W9_arg9 m ρ c)
theorem W1_arg10 (c : Dev nD) : W1 m ρ c (Proc.devRef .tc main_arg10) = (m ((c.tc : Thread nD τ).loc main_arg10)) := by
  show StableHlo.after hostOps0 (W0 m ρ c) (Proc.devRef .tc main_arg10) = _
  after_results_simp
  try rfl
theorem W2_arg10 (c : Dev nD) : W2 m ρ c (Proc.devRef .tc main_arg10) = (m ((c.tc : Thread nD τ).loc main_arg10)) :=
  (W2_of_ne m ρ c main_arg10 (by decide)).trans (W1_arg10 m ρ c)
theorem W3_arg10 (c : Dev nD) : W3 m ρ c (Proc.devRef .tc main_arg10) = (m ((c.tc : Thread nD τ).loc main_arg10)) :=
  (show StableHlo.after hostOps1 (W2 m ρ c) (Proc.devRef .tc main_arg10) = W2 m ρ c (Proc.devRef .tc main_arg10) by after_results_simp).trans
    (W2_arg10 m ρ c)
theorem W4_arg10 (c : Dev nD) : W4 m ρ c (Proc.devRef .tc main_arg10) = (m ((c.tc : Thread nD τ).loc main_arg10)) :=
  (W4_of_ne m ρ c main_arg10 (by decide)).trans (W3_arg10 m ρ c)
theorem W5_arg10 (c : Dev nD) : W5 m ρ c (Proc.devRef .tc main_arg10) = (m ((c.tc : Thread nD τ).loc main_arg10)) :=
  (W5_of_ne m ρ c main_arg10 (by decide)).trans (W4_arg10 m ρ c)
theorem W6_arg10 (c : Dev nD) : W6 m ρ c (Proc.devRef .tc main_arg10) = (m ((c.tc : Thread nD τ).loc main_arg10)) :=
  (show StableHlo.after hostOps3 (W5 m ρ c) (Proc.devRef .tc main_arg10) = W5 m ρ c (Proc.devRef .tc main_arg10) by after_results_simp).trans
    (W5_arg10 m ρ c)
theorem W7_arg10 (c : Dev nD) : W7 m ρ c (Proc.devRef .tc main_arg10) = (m ((c.tc : Thread nD τ).loc main_arg10)) :=
  (W7_of_ne m ρ c main_arg10 (by decide)).trans (W6_arg10 m ρ c)
theorem W8_arg10 (c : Dev nD) : W8 m ρ c (Proc.devRef .tc main_arg10) = (m ((c.tc : Thread nD τ).loc main_arg10)) :=
  (W8_of_ne m ρ c main_arg10 (by decide)).trans (W7_arg10 m ρ c)
theorem W9_arg10 (c : Dev nD) : W9 m ρ c (Proc.devRef .tc main_arg10) = (m ((c.tc : Thread nD τ).loc main_arg10)) :=
  (show StableHlo.after hostOps5 (W8 m ρ c) (Proc.devRef .tc main_arg10) = W8 m ρ c (Proc.devRef .tc main_arg10) by after_results_simp).trans
    (W8_arg10 m ρ c)
theorem W10_arg10 (c : Dev nD) : W10 m ρ c (Proc.devRef .tc main_arg10) = (m ((c.tc : Thread nD τ).loc main_arg10)) :=
  (W10_of_ne m ρ c main_arg10 (by decide)).trans (W9_arg10 m ρ c)
theorem W11_arg10 (c : Dev nD) : W11 m ρ c (Proc.devRef .tc main_arg10) = (m ((c.tc : Thread nD τ).loc main_arg10)) :=
  (show StableHlo.after hostOps6 (W10 m ρ c) (Proc.devRef .tc main_arg10) = W10 m ρ c (Proc.devRef .tc main_arg10) by after_results_simp).trans
    (W10_arg10 m ρ c)
theorem W12_arg10 (c : Dev nD) : W12 m ρ c (Proc.devRef .tc main_arg10) = (m ((c.tc : Thread nD τ).loc main_arg10)) :=
  (W12_of_ne m ρ c main_arg10 (by decide)).trans (W11_arg10 m ρ c)
theorem W13_arg10 (c : Dev nD) : W13 m ρ c (Proc.devRef .tc main_arg10) = (m ((c.tc : Thread nD τ).loc main_arg10)) :=
  (show StableHlo.after hostOps7 (W12 m ρ c) (Proc.devRef .tc main_arg10) = W12 m ρ c (Proc.devRef .tc main_arg10) by after_results_simp).trans
    (W12_arg10 m ρ c)
theorem W1_arg11 (c : Dev nD) : W1 m ρ c (Proc.devRef .tc main_arg11) = (m ((c.tc : Thread nD τ).loc main_arg11)) := by
  show StableHlo.after hostOps0 (W0 m ρ c) (Proc.devRef .tc main_arg11) = _
  after_results_simp
  try rfl
theorem W2_arg11 (c : Dev nD) : W2 m ρ c (Proc.devRef .tc main_arg11) = (m ((c.tc : Thread nD τ).loc main_arg11)) :=
  (W2_of_ne m ρ c main_arg11 (by decide)).trans (W1_arg11 m ρ c)
theorem W3_arg11 (c : Dev nD) : W3 m ρ c (Proc.devRef .tc main_arg11) = (m ((c.tc : Thread nD τ).loc main_arg11)) :=
  (show StableHlo.after hostOps1 (W2 m ρ c) (Proc.devRef .tc main_arg11) = W2 m ρ c (Proc.devRef .tc main_arg11) by after_results_simp).trans
    (W2_arg11 m ρ c)
theorem W4_arg11 (c : Dev nD) : W4 m ρ c (Proc.devRef .tc main_arg11) = (m ((c.tc : Thread nD τ).loc main_arg11)) :=
  (W4_of_ne m ρ c main_arg11 (by decide)).trans (W3_arg11 m ρ c)
theorem W5_arg11 (c : Dev nD) : W5 m ρ c (Proc.devRef .tc main_arg11) = (m ((c.tc : Thread nD τ).loc main_arg11)) :=
  (W5_of_ne m ρ c main_arg11 (by decide)).trans (W4_arg11 m ρ c)
theorem W6_arg11 (c : Dev nD) : W6 m ρ c (Proc.devRef .tc main_arg11) = (m ((c.tc : Thread nD τ).loc main_arg11)) :=
  (show StableHlo.after hostOps3 (W5 m ρ c) (Proc.devRef .tc main_arg11) = W5 m ρ c (Proc.devRef .tc main_arg11) by after_results_simp).trans
    (W5_arg11 m ρ c)
theorem W7_arg11 (c : Dev nD) : W7 m ρ c (Proc.devRef .tc main_arg11) = (m ((c.tc : Thread nD τ).loc main_arg11)) :=
  (W7_of_ne m ρ c main_arg11 (by decide)).trans (W6_arg11 m ρ c)
theorem W8_arg11 (c : Dev nD) : W8 m ρ c (Proc.devRef .tc main_arg11) = (m ((c.tc : Thread nD τ).loc main_arg11)) :=
  (W8_of_ne m ρ c main_arg11 (by decide)).trans (W7_arg11 m ρ c)
theorem W9_arg11 (c : Dev nD) : W9 m ρ c (Proc.devRef .tc main_arg11) = (m ((c.tc : Thread nD τ).loc main_arg11)) :=
  (show StableHlo.after hostOps5 (W8 m ρ c) (Proc.devRef .tc main_arg11) = W8 m ρ c (Proc.devRef .tc main_arg11) by after_results_simp).trans
    (W8_arg11 m ρ c)
theorem W10_arg11 (c : Dev nD) : W10 m ρ c (Proc.devRef .tc main_arg11) = (m ((c.tc : Thread nD τ).loc main_arg11)) :=
  (W10_of_ne m ρ c main_arg11 (by decide)).trans (W9_arg11 m ρ c)
theorem W11_arg11 (c : Dev nD) : W11 m ρ c (Proc.devRef .tc main_arg11) = (m ((c.tc : Thread nD τ).loc main_arg11)) :=
  (show StableHlo.after hostOps6 (W10 m ρ c) (Proc.devRef .tc main_arg11) = W10 m ρ c (Proc.devRef .tc main_arg11) by after_results_simp).trans
    (W10_arg11 m ρ c)
theorem W12_arg11 (c : Dev nD) : W12 m ρ c (Proc.devRef .tc main_arg11) = (m ((c.tc : Thread nD τ).loc main_arg11)) :=
  (W12_of_ne m ρ c main_arg11 (by decide)).trans (W11_arg11 m ρ c)

/-! ## The first stretch: the edge list's rows and the degree normaliser -/

theorem W1_src (c : Dev nD) : W1 m ρ c (Proc.devRef .tc main_v1) = src m c := by
  show StableHlo.after hostOps0 (W0 m ρ c) (Proc.devRef .tc main_v1) = _
  after_results_simp
  rfl

theorem W1_dst (c : Dev nD) : W1 m ρ c (Proc.devRef .tc main_v3) = dst m c := by
  show StableHlo.after hostOps0 (W0 m ρ c) (Proc.devRef .tc main_v3) = _
  after_results_simp
  rfl

theorem W1_dis (c : Dev nD) : W1 m ρ c (Proc.devRef .tc main_v10) = dis m c := by
  show StableHlo.after hostOps0 (W0 m ρ c) (Proc.devRef .tc main_v10) = _
  after_results_simp
  rfl

theorem W2_src (c : Dev nD) : W2 m ρ c (Proc.devRef .tc main_v1) = src m c :=
  (W2_of_ne m ρ c main_v1 (by decide)).trans (W1_src m ρ c)
theorem W3_src (c : Dev nD) : W3 m ρ c (Proc.devRef .tc main_v1) = src m c :=
  (show StableHlo.after hostOps1 (W2 m ρ c) (Proc.devRef .tc main_v1) = W2 m ρ c (Proc.devRef .tc main_v1) by after_results_simp).trans
    (W2_src m ρ c)
theorem W4_src (c : Dev nD) : W4 m ρ c (Proc.devRef .tc main_v1) = src m c :=
  (W4_of_ne m ρ c main_v1 (by decide)).trans (W3_src m ρ c)
theorem W5_src (c : Dev nD) : W5 m ρ c (Proc.devRef .tc main_v1) = src m c :=
  (W5_of_ne m ρ c main_v1 (by decide)).trans (W4_src m ρ c)
theorem W6_src (c : Dev nD) : W6 m ρ c (Proc.devRef .tc main_v1) = src m c :=
  (show StableHlo.after hostOps3 (W5 m ρ c) (Proc.devRef .tc main_v1) = W5 m ρ c (Proc.devRef .tc main_v1) by after_results_simp).trans
    (W5_src m ρ c)
theorem W7_src (c : Dev nD) : W7 m ρ c (Proc.devRef .tc main_v1) = src m c :=
  (W7_of_ne m ρ c main_v1 (by decide)).trans (W6_src m ρ c)
theorem W8_src (c : Dev nD) : W8 m ρ c (Proc.devRef .tc main_v1) = src m c :=
  (W8_of_ne m ρ c main_v1 (by decide)).trans (W7_src m ρ c)

theorem W2_dst (c : Dev nD) : W2 m ρ c (Proc.devRef .tc main_v3) = dst m c :=
  (W2_of_ne m ρ c main_v3 (by decide)).trans (W1_dst m ρ c)
theorem W3_dst (c : Dev nD) : W3 m ρ c (Proc.devRef .tc main_v3) = dst m c :=
  (show StableHlo.after hostOps1 (W2 m ρ c) (Proc.devRef .tc main_v3) = W2 m ρ c (Proc.devRef .tc main_v3) by after_results_simp).trans
    (W2_dst m ρ c)
theorem W4_dst (c : Dev nD) : W4 m ρ c (Proc.devRef .tc main_v3) = dst m c :=
  (W4_of_ne m ρ c main_v3 (by decide)).trans (W3_dst m ρ c)
theorem W5_dst (c : Dev nD) : W5 m ρ c (Proc.devRef .tc main_v3) = dst m c :=
  (W5_of_ne m ρ c main_v3 (by decide)).trans (W4_dst m ρ c)
theorem W6_dst (c : Dev nD) : W6 m ρ c (Proc.devRef .tc main_v3) = dst m c :=
  (show StableHlo.after hostOps3 (W5 m ρ c) (Proc.devRef .tc main_v3) = W5 m ρ c (Proc.devRef .tc main_v3) by after_results_simp).trans
    (W5_dst m ρ c)
theorem W7_dst (c : Dev nD) : W7 m ρ c (Proc.devRef .tc main_v3) = dst m c :=
  (W7_of_ne m ρ c main_v3 (by decide)).trans (W6_dst m ρ c)
theorem W8_dst (c : Dev nD) : W8 m ρ c (Proc.devRef .tc main_v3) = dst m c :=
  (W8_of_ne m ρ c main_v3 (by decide)).trans (W7_dst m ρ c)

theorem W2_dis (c : Dev nD) : W2 m ρ c (Proc.devRef .tc main_v10) = dis m c :=
  (W2_of_ne m ρ c main_v10 (by decide)).trans (W1_dis m ρ c)
theorem W3_dis (c : Dev nD) : W3 m ρ c (Proc.devRef .tc main_v10) = dis m c :=
  (show StableHlo.after hostOps1 (W2 m ρ c) (Proc.devRef .tc main_v10) = W2 m ρ c (Proc.devRef .tc main_v10) by after_results_simp).trans
    (W2_dis m ρ c)
theorem W4_dis (c : Dev nD) : W4 m ρ c (Proc.devRef .tc main_v10) = dis m c :=
  (W4_of_ne m ρ c main_v10 (by decide)).trans (W3_dis m ρ c)
theorem W5_dis (c : Dev nD) : W5 m ρ c (Proc.devRef .tc main_v10) = dis m c :=
  (W5_of_ne m ρ c main_v10 (by decide)).trans (W4_dis m ρ c)
theorem W6_dis (c : Dev nD) : W6 m ρ c (Proc.devRef .tc main_v10) = dis m c :=
  (show StableHlo.after hostOps3 (W5 m ρ c) (Proc.devRef .tc main_v10) = W5 m ρ c (Proc.devRef .tc main_v10) by after_results_simp).trans
    (W5_dis m ρ c)
theorem W7_dis (c : Dev nD) : W7 m ρ c (Proc.devRef .tc main_v10) = dis m c :=
  (W7_of_ne m ρ c main_v10 (by decide)).trans (W6_dis m ρ c)
theorem W8_dis (c : Dev nD) : W8 m ρ c (Proc.devRef .tc main_v10) = dis m c :=
  (W8_of_ne m ρ c main_v10 (by decide)).trans (W7_dis m ρ c)

/-! ## Layer 1 -/

theorem W2_h1 (c : Dev nD) : W2 m ρ c (Proc.devRef .tc main_v11) = h1 m c := by
  refine (W2_arr m ρ c 2).trans ?_
  rw [Region0.final (V1 m ρ) c]
  show Product.prod (W1 m ρ c (Proc.devRef .tc main_arg0)) (W1 m ρ c (Proc.devRef .tc main_arg2)) = _
  rw [W1_arg0 m ρ c, W1_arg2 m ρ c]
  rfl

theorem W3_agg1 (c : Dev nD) : W3 m ρ c (Proc.devRef .tc main_v39) = Gcn.aggOf hostFacts (dis m c) (src m c) (dst m c) (h1 m c) := by
  show StableHlo.after hostOps1 (W2 m ρ c) (Proc.devRef .tc main_v39) = _
  after_results_simp
  rw [W2_dis m ρ c, W2_src m ρ c, W2_dst m ρ c, W2_h1 m ρ c]
  rfl
theorem W3_dcol1 (c : Dev nD) : W3 m ρ c (Proc.devRef .tc main_v40) = shapeCast S50000x1 (dis m c) Facts₀.shapeCasts_S50000_S50000x1 := by
  show StableHlo.after hostOps1 (W2 m ρ c) (Proc.devRef .tc main_v40) = _
  after_results_simp
  rw [W2_dis m ρ c]
  rfl
theorem W3_brow1 (c : Dev nD) : W3 m ρ c (Proc.devRef .tc main_v41) = shapeCast S1x64 (m ((c.tc : Thread nD τ).loc main_arg3)) Facts₀.shapeCasts_S64_S1x64 := by
  show StableHlo.after hostOps1 (W2 m ρ c) (Proc.devRef .tc main_v41) = _
  after_results_simp
  rw [W2_arg3 m ρ c]
  rfl
theorem W3_h1 (c : Dev nD) : W3 m ρ c (Proc.devRef .tc main_v11) = h1 m c :=
  (show StableHlo.after hostOps1 (W2 m ρ c) (Proc.devRef .tc main_v11) = W2 m ρ c (Proc.devRef .tc main_v11) by after_results_simp).trans
    (W2_h1 m ρ c)
theorem W4_x1 (c : Dev nD) : W4 m ρ c (Proc.devRef .tc main_v42) = x1 m c := by
  refine (W4_arr m ρ c 4).trans ?_
  rw [Region1.final (V3 m ρ) c]
  show NodeUpdate.updateCol (W3 m ρ c (Proc.devRef .tc main_v39)) (W3 m ρ c (Proc.devRef .tc main_v11)) (W3 m ρ c (Proc.devRef .tc main_v40)) (W3 m ρ c (Proc.devRef .tc main_v41)) = _
  rw [W3_agg1 m ρ c, W3_h1 m ρ c, W3_dcol1 m ρ c, W3_brow1 m ρ c]
  exact NodeUpdate.updateCol_shapeCast _ _ _ _ _ _

/-! ## Layer 2 -/

theorem W5_h2 (c : Dev nD) : W5 m ρ c (Proc.devRef .tc main_v43) = h2 m c := by
  refine (W5_arr m ρ c 2).trans ?_
  rw [Region2.final (V4 m ρ) c]
  show Product.prod (W4 m ρ c (Proc.devRef .tc main_v42)) (W4 m ρ c (Proc.devRef .tc main_arg4)) = _
  rw [W4_x1 m ρ c, W4_arg4 m ρ c]
  rfl

theorem W6_agg2 (c : Dev nD) : W6 m ρ c (Proc.devRef .tc main_v71) = Gcn.aggOf hostFacts (dis m c) (src m c) (dst m c) (h2 m c) := by
  show StableHlo.after hostOps3 (W5 m ρ c) (Proc.devRef .tc main_v71) = _
  after_results_simp
  rw [W5_dis m ρ c, W5_src m ρ c, W5_dst m ρ c, W5_h2 m ρ c]
  rfl
theorem W6_dcol2 (c : Dev nD) : W6 m ρ c (Proc.devRef .tc main_v72) = shapeCast S50000x1 (dis m c) Facts₀.shapeCasts_S50000_S50000x1 := by
  show StableHlo.after hostOps3 (W5 m ρ c) (Proc.devRef .tc main_v72) = _
  after_results_simp
  rw [W5_dis m ρ c]
  rfl
theorem W6_brow2 (c : Dev nD) : W6 m ρ c (Proc.devRef .tc main_v73) = shapeCast S1x64 (m ((c.tc : Thread nD τ).loc main_arg5)) Facts₀.shapeCasts_S64_S1x64 := by
  show StableHlo.after hostOps3 (W5 m ρ c) (Proc.devRef .tc main_v73) = _
  after_results_simp
  rw [W5_arg5 m ρ c]
  rfl
theorem W6_h2 (c : Dev nD) : W6 m ρ c (Proc.devRef .tc main_v43) = h2 m c :=
  (show StableHlo.after hostOps3 (W5 m ρ c) (Proc.devRef .tc main_v43) = W5 m ρ c (Proc.devRef .tc main_v43) by after_results_simp).trans
    (W5_h2 m ρ c)
theorem W7_x2 (c : Dev nD) : W7 m ρ c (Proc.devRef .tc main_v74) = x2 m c := by
  refine (W7_arr m ρ c 4).trans ?_
  rw [Region3.final (V6 m ρ) c]
  show NodeUpdate.updateCol (W6 m ρ c (Proc.devRef .tc main_v71)) (W6 m ρ c (Proc.devRef .tc main_v43)) (W6 m ρ c (Proc.devRef .tc main_v72)) (W6 m ρ c (Proc.devRef .tc main_v73)) = _
  rw [W6_agg2 m ρ c, W6_h2 m ρ c, W6_dcol2 m ρ c, W6_brow2 m ρ c]
  exact NodeUpdate.updateCol_shapeCast _ _ _ _ _ _

/-! ## Layer 3 -/

theorem W8_h3 (c : Dev nD) : W8 m ρ c (Proc.devRef .tc main_v75) = h3 m c := by
  refine (W8_arr m ρ c 2).trans ?_
  rw [Region4.final (V7 m ρ) c]
  show Product.prod (W7 m ρ c (Proc.devRef .tc main_v74)) (W7 m ρ c (Proc.devRef .tc main_arg6)) = _
  rw [W7_x2 m ρ c, W7_arg6 m ρ c]
  rfl

theorem W9_agg3 (c : Dev nD) : W9 m ρ c (Proc.devRef .tc main_v103) = Gcn.aggOf hostFacts (dis m c) (src m c) (dst m c) (h3 m c) := by
  show StableHlo.after hostOps5 (W8 m ρ c) (Proc.devRef .tc main_v103) = _
  after_results_simp
  rw [W8_dis m ρ c, W8_src m ρ c, W8_dst m ρ c, W8_h3 m ρ c]
  rfl
theorem W9_dcol3 (c : Dev nD) : W9 m ρ c (Proc.devRef .tc main_v104) = shapeCast S50000x1 (dis m c) Facts₀.shapeCasts_S50000_S50000x1 := by
  show StableHlo.after hostOps5 (W8 m ρ c) (Proc.devRef .tc main_v104) = _
  after_results_simp
  rw [W8_dis m ρ c]
  rfl
theorem W9_brow3 (c : Dev nD) : W9 m ρ c (Proc.devRef .tc main_v105) = shapeCast S1x64 (m ((c.tc : Thread nD τ).loc main_arg7)) Facts₀.shapeCasts_S64_S1x64 := by
  show StableHlo.after hostOps5 (W8 m ρ c) (Proc.devRef .tc main_v105) = _
  after_results_simp
  rw [W8_arg7 m ρ c]
  rfl
theorem W9_h3 (c : Dev nD) : W9 m ρ c (Proc.devRef .tc main_v75) = h3 m c :=
  (show StableHlo.after hostOps5 (W8 m ρ c) (Proc.devRef .tc main_v75) = W8 m ρ c (Proc.devRef .tc main_v75) by after_results_simp).trans
    (W8_h3 m ρ c)
theorem W10_x3 (c : Dev nD) : W10 m ρ c (Proc.devRef .tc main_v106) = x3 m c := by
  refine (W10_arr m ρ c 4).trans ?_
  rw [Region5.final (V9 m ρ) c]
  show NodeUpdate.updateCol (W9 m ρ c (Proc.devRef .tc main_v103)) (W9 m ρ c (Proc.devRef .tc main_v75)) (W9 m ρ c (Proc.devRef .tc main_v104)) (W9 m ρ c (Proc.devRef .tc main_v105)) = _
  rw [W9_agg3 m ρ c, W9_h3 m ρ c, W9_dcol3 m ρ c, W9_brow3 m ρ c]
  exact NodeUpdate.updateCol_shapeCast _ _ _ _ _ _

/-! ## The head -/

theorem W11_brow4 (c : Dev nD) : W11 m ρ c (Proc.devRef .tc main_v107) = shapeCast S1x64 (m ((c.tc : Thread nD τ).loc main_arg9)) Facts₀.shapeCasts_S64_S1x64 := by
  show StableHlo.after hostOps6 (W10 m ρ c) (Proc.devRef .tc main_v107) = _
  after_results_simp
  rw [W10_arg9 m ρ c]
  rfl

theorem W11_x3 (c : Dev nD) : W11 m ρ c (Proc.devRef .tc main_v106) = x3 m c :=
  (show StableHlo.after hostOps6 (W10 m ρ c) (Proc.devRef .tc main_v106) = W10 m ρ c (Proc.devRef .tc main_v106) by after_results_simp).trans
    (W10_x3 m ρ c)

theorem W12_hid (c : Dev nD) : W12 m ρ c (Proc.devRef .tc main_v108) = hid m c := by
  refine (W12_arr m ρ c 3).trans ?_
  rw [Region6.final (V11 m ρ) c]
  show NodeUpdate.relu (AffineRow.rowAffine (W11 m ρ c (Proc.devRef .tc main_v106)) (W11 m ρ c (Proc.devRef .tc main_arg8)) (W11 m ρ c (Proc.devRef .tc main_v107))) = _
  rw [W11_x3 m ρ c, W11_arg8 m ρ c, W11_brow4 m ρ c, AffineRow.rowAffine_shapeCast]
  rfl
theorem W13_brow5 (c : Dev nD) : W13 m ρ c (Proc.devRef .tc main_v109) = shapeCast S1x10 (m ((c.tc : Thread nD τ).loc main_arg11)) Facts₀.shapeCasts_S10_S1x10 := by
  show StableHlo.after hostOps7 (W12 m ρ c) (Proc.devRef .tc main_v109) = _
  after_results_simp
  rw [W12_arg11 m ρ c]
  rfl

theorem W13_hid (c : Dev nD) : W13 m ρ c (Proc.devRef .tc main_v108) = hid m c :=
  (show StableHlo.after hostOps7 (W12 m ρ c) (Proc.devRef .tc main_v108) = W12 m ρ c (Proc.devRef .tc main_v108) by after_results_simp).trans
    (W12_hid m ρ c)

/-- The result buffer's final contents. -/
theorem W14_out (c : Dev nD) : W14 m ρ c (Proc.devRef .tc main_v110) = out m c := by
  refine (W14_arr m ρ c 3).trans ?_
  rw [Region7.final (V13 m ρ) c]
  show AffineRow.rowAffine (W13 m ρ c (Proc.devRef .tc main_v108)) (W13 m ρ c (Proc.devRef .tc main_arg10)) (W13 m ρ c (Proc.devRef .tc main_v109)) = _
  rw [W13_hid m ρ c, W13_arg10 m ρ c, W13_brow5 m ρ c, AffineRow.rowAffine_shapeCast]
  rfl

end Cert.KernelIdeal.KValue

end
-- ==== Proof.KRun.lean ====
/-
  The kernel program's run, with the result named.

  From any memory with zero counters, every weakly fair execution of the kernel program terminates, nothing
  faulting; the result buffer then holds the network function of the argument arrays, and the argument arrays
  are as launched. The run is the launch of the program's fourteen segments; the final state is read at the
  fold's last contents, where the result buffer holds the last of the named values.
-/
import proofs.«136079_j24970939859424_1_alg».proof.Proof.Gen.KernelIdeal.Frame
import proofs.«136079_j24970939859424_1_alg».proof.Proof.KValue

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: the result buffer ends at the network function of the arguments, the arguments unchanged. -/
theorem run : θ_run defs (onTc (τ := τ) (main (F := Ideal))) ⟨m, fun _ => 0, ρ⟩ (fun r => ∀ c : Dev nD,
      r.2.mem ((c.tc : Thread nD τ).loc main_v110) = Gcn.net KValue.hostFacts (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨(h c _ (mem_uc main_v110 (by decide))).trans ((KValue.W14_out m ρ c).trans (KValue.out_eq m c)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.KRun

end
-- ==== Proof.RefValue.lean ====
/-
  The reference's run, read as the network function.

  The reference's result term is the composition of its host operations over the argument arrays. Its dense
  pieces are respelt here: each general dot product with the plain dimension numbers is the matrix product,
  each "add the broadcast self-loop term and the broadcast bias, clamp at zero" is one node update, each
  "product plus broadcast bias" is an affine layer, the remaining clamp is the clamp. What is left — the reads
  at the sources and targets and the sums over the landing edges — is the network function's own spelling,
  operation for operation, so the two terms are one.
-/
import proofs.«136079_j24970939859424_1_alg».proof.Proof.Gen.ReferenceIdeal.Run
import proofs.«136079_j24970939859424_1_alg».proof.Proof.GcnNet

noncomputable section

namespace Cert.ReferenceIdeal.RefValue

open Cert.ReferenceIdeal Idealize.ShloMosaic Idealize.ShloMosaic.TcCoe Idealize.SL.Sem
open Facts₀ Facts

/-- The reference's dimension records and shape facts for the edge operations. -/
def hostFacts : Gcn.HostFacts where
  sl0 := slices_S2x800000_S1x800000_0_0
  sl1 := slices_S2x800000_S1x800000_1_0
  sc := shapeCasts_S1x800000_S800000
  b0E := bcast_S_S800000
  b0V := bcast_S_S50000
  bE1 := bcast_S800000_S800000x1_0
  bEF := bcast_S800000x1_S800000x64_0_1
  b0VF := bcast_S_S50000x64
  sdV := scatter_S50000_S800000x1_S800000_n_0_0_1
  gdV := gather_S50000_S800000x1_S800000_n_0_n_n_0_1_1
  gdVF := gather_S50000x64_S800000x1_S800000x64_1_0_n_n_0_1_164
  sdVF := scatter_S50000x64_S800000x1_S800000x64_1_0_0_1

/-- The first layer's projection is the matrix product. -/
theorem dot_in (X : FVec Ideal S50000x128 .f32) (W : FVec Ideal S128x64 .f32) :
    Host.dotGeneral dot_S50000x128_S128x64_S50000x64_1_0_0_1_n_n none X W = Product.prod X W :=
  Product.dotGeneral_eq _ rfl none X W

/-- A hidden layer's projection is the matrix product. -/
theorem dot_hid (X : FVec Ideal S50000x64 .f32) (W : FVec Ideal S64x64 .f32) :
    Host.dotGeneral dot_S50000x64_S64x64_S50000x64_1_0_0_1_n_n none X W = Product.prod X W :=
  Product.dotGeneral_eq _ rfl none X W

/-- The output projection is the matrix product. -/
theorem dot_out (X : FVec Ideal S50000x64 .f32) (W : FVec Ideal S64x10 .f32) :
    Host.dotGeneral dot_S50000x64_S64x10_S50000x10_1_0_0_1_n_n none X W = Product.prod X W :=
  Product.dotGeneral_eq _ rfl none X W

/-- The reference's spelling of one node update. -/
theorem node_update (A H : FVec Ideal S50000x64 .f32) (d : FVec Ideal S50000 .f32) (b : FVec Ideal S64 .f32) :
    maximumf
        (addf
          (addf A (mulf (broadcastInDim S50000x64 ![0, 1] bcast_S50000x1_S50000x64_0_1
            (broadcastInDim S50000x1 ![0] bcast_S50000_S50000x1_0 (mulf d d))) H))
          (broadcastInDim S50000x64 ![0, 1] bcast_S1x64_S50000x64_0_1 (broadcastInDim S1x64 ![1] bcast_S64_S1x64_1 b)))
        (broadcastInDim S50000x64 ![] bcast_S_S50000x64 (constant (F := Ideal) S_ .f32 0x00000000#32))
      = NodeUpdate.update A H d b :=
  NodeUpdate.host_eq (by decide) A H d b _ _ _ _ _

/-- The reference's spelling of the hidden affine layer, over the product. -/
theorem affine_hid (X : FVec Ideal S50000x64 .f32) (W : FVec Ideal S64x64 .f32) (b : FVec Ideal S64 .f32) :
    addf (Product.prod X W)
        (broadcastInDim S50000x64 ![0, 1] bcast_S1x64_S50000x64_0_1 (broadcastInDim S1x64 ![1] bcast_S64_S1x64_1 b))
      = Linear.dense X W b := by
  rw [← dot_hid]
  exact Linear.host_eq _ rfl (by decide) none X W b _ _

/-- The reference's spelling of the output affine layer, over the product. -/
theorem affine_out (X : FVec Ideal S50000x64 .f32) (W : FVec Ideal S64x10 .f32) (b : FVec Ideal S10 .f32) :
    addf (Product.prod X W)
        (broadcastInDim S50000x10 ![0, 1] bcast_S1x10_S50000x10_0_1 (broadcastInDim S1x10 ![1] bcast_S10_S1x10_1 b))
      = Linear.dense X W b := by
  rw [← dot_out]
  exact Linear.host_eq _ rfl (by decide) none X W b _ _

/-- The reference's clamp at zero. -/
theorem clamp (X : FVec Ideal S50000x64 .f32) :
    maximumf X (broadcastInDim S50000x64 ![] bcast_S_S50000x64 (constant (F := Ideal) S_ .f32 0x00000000#32))
      = NodeUpdate.relu X :=
  NodeUpdate.host_relu_eq X _

set_option backward.isDefEq.respectTransparency.types false in
set_option maxRecDepth 16384 in
set_option maxHeartbeats 4000000 in
/-- The reference's result is the network function of its argument arrays. -/
theorem result_eq (m : (ℓ : Loc nD τ sig) → Buf (Elt Ideal) ℓ) (c : Dev nD) :
    Cert.ReferenceIdeal.Value.res_main_v133 (F := Ideal) m c
      = Gcn.net hostFacts (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.Value.res_main_v133
  rw [dot_in, dot_out]
  repeat rw [dot_hid]
  repeat rw [node_update]
  rw [affine_hid, affine_out, clamp]
  rfl

end Cert.ReferenceIdeal.RefValue

end
-- ==== Proof.lean ====
/-
  A three-layer graph convolution network with a two-layer head, as a program of eight tiled kernels among
  stretches of host operations, against the same network written with host operations only.

  Per layer both programs compute H = X · W, read H and the degree normaliser dis = deg^(-1/2) at the sources
  and targets of the edges, sum the scaled messages at their targets, and put

      out(k, ·) = max ((agg(k, ·) + (dis(k) · dis(k)) · H(k, ·)) + b) 0;

  the head is relu (X · Wf1 + bf1) · Wf2 + bf2. The edge part is spelt with the same host operations in both
  programs. The kernel program does the dense parts in kernels tiled over blocks of 2000 of the 50000 nodes: a
  block's rows of a matrix product depend on the block's rows of the left operand only, and a node update is
  entry by entry, so each kernel's output array ends as the whole-array function of its input arrays (the
  Region modules), and following the buffers through the program's fourteen segments gives its result as the
  network function of the arguments (KValue, KRun). The reference's dense parts — general dot products with the
  plain dimension numbers, broadcasts of the squared normaliser and the bias, maxima with a broadcast zero — are
  the same arrays entry by entry (RefValue). At the ideal values a change of float format is the identity and a
  matrix product into a zero accumulator is the plain sum, and both programs apply the same operations in the
  same arrangement, so no law of arithmetic is needed and the inputs' finiteness is not used.

  The three frames are the generated ones (the reference's is its generated run with the result dropped); the
  idealization rewrote nothing, so it preserves the kernel trivially.
-/
import proofs.«136079_j24970939859424_1_alg».proof.Defs
import proofs.«136079_j24970939859424_1_alg».proof.Proof.Gen.Kernel
import proofs.«136079_j24970939859424_1_alg».proof.Proof.Gen.Kernel.Skeleton
import proofs.«136079_j24970939859424_1_alg».proof.Proof.Gen.Kernel.Launch
import proofs.«136079_j24970939859424_1_alg».proof.Proof.Gen.Kernel.Points
import proofs.«136079_j24970939859424_1_alg».proof.Proof.Gen.Kernel.Frame
import proofs.«136079_j24970939859424_1_alg».proof.Proof.Gen.KernelIdeal
import proofs.«136079_j24970939859424_1_alg».proof.Proof.Gen.KernelIdeal.Skeleton
import proofs.«136079_j24970939859424_1_alg».proof.Proof.Gen.KernelIdeal.Launch
import proofs.«136079_j24970939859424_1_alg».proof.Proof.Gen.KernelIdeal.Points
import proofs.«136079_j24970939859424_1_alg».proof.Proof.Gen.KernelIdeal.Frame
import proofs.«136079_j24970939859424_1_alg».proof.Proof.Gen.ReferenceIdeal
import proofs.«136079_j24970939859424_1_alg».proof.Proof.Gen.ReferenceIdeal.Run
import proofs.«136079_j24970939859424_1_alg».proof.Proof.Gen.Pre_finite_inputs
import proofs.«136079_j24970939859424_1_alg».proof.Proof.KRun
import proofs.«136079_j24970939859424_1_alg».proof.Proof.RefValue
import Idealize.ShloMosaic.Adequacy
import Idealize.ShloMosaic.Init

noncomputable section

namespace Cert.Proof

open Idealize.ShloMosaic Idealize.SL.Sem

/-- The two programs' dimension records and shape facts for the edge operations are the same data. -/
theorem hostFacts_eq : Cert.ReferenceIdeal.RefValue.hostFacts = Cert.KernelIdeal.KValue.hostFacts := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network function of the arguments in
    their result buffers. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.RefValue.result_eq, a0, a1, a2, a3, a4, a5, a6, a7, a8, a9, a10, a11, hostFacts_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
